-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x2 : Shape := ⟨3, ![32, 1024, 2]⟩
abbrev S32x2x1024x1024 : Shape := ⟨4, ![32, 2, 1024, 1024]⟩
abbrev S32x1024x32 : Shape := ⟨3, ![32, 1024, 32]⟩
abbrev S170x64 : Shape := ⟨2, ![170, 64]⟩
abbrev S64 : Shape := ⟨1, ![64]⟩
abbrev S170x32 : Shape := ⟨2, ![170, 32]⟩
abbrev S32 : Shape := ⟨1, ![32]⟩
abbrev S_ : Shape := ⟨0, ![]⟩

class Facts : Prop where
  bcast_S_S32x1024x2 : S_.BroadcastsInDim S32x1024x2 (![] : Fin 0 → Fin S32x1024x2.rank)
  reducesTo_S32x1024x2_S_d0_1_2 : S32x1024x2.ReducesTo [0, 1, 2] S_
  h_S_ : 0 < S_.numel
  bcast_S_S32x2x1024x1024 : S_.BroadcastsInDim S32x2x1024x1024 (![] : Fin 0 → Fin S32x2x1024x1024.rank)
  reducesTo_S32x2x1024x1024_S_d0_1_2_3 : S32x2x1024x1024.ReducesTo [0, 1, 2, 3] S_
  bcast_S_S32x1024x32 : S_.BroadcastsInDim S32x1024x32 (![] : Fin 0 → Fin S32x1024x32.rank)
  reducesTo_S32x1024x32_S_d0_1_2 : S32x1024x32.ReducesTo [0, 1, 2] S_
  bcast_S_S170x64 : S_.BroadcastsInDim S170x64 (![] : Fin 0 → Fin S170x64.rank)
  reducesTo_S170x64_S_d0_1 : S170x64.ReducesTo [0, 1] S_
  bcast_S_S64 : S_.BroadcastsInDim S64 (![] : Fin 0 → Fin S64.rank)
  reducesTo_S64_S_d0 : S64.ReducesTo [0] S_
  bcast_S_S170x32 : S_.BroadcastsInDim S170x32 (![] : Fin 0 → Fin S170x32.rank)
  reducesTo_S170x32_S_d0_1 : S170x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S64 .f32) (main_arg5 : FVec F S170x32 .f32) (main_arg6 : FVec F S32 .f32) (main_v13 : IVec S_ 1) (main_v16 : IVec S170x64 1) : IVec S_ 1 :=
  let main_c_5 : IVec S_ 1 := constantI S_ 1 1#1
  let main_v17 : IVec S_ 1 := (fun x v => Host.reduce IntOp.andi x v reducesTo_S170x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S170x32 .f32 := Host.absf main_arg5
  let main_cst_8 : FVec F S_ .f32 := constant S_ .f32 0x7F800000#32
  let main_v25 : FVec F S170x32 .f32 := broadcastInDim S170x32 ![] bcast_S_S170x32 main_cst_8
  let main_v26 : IVec S170x32 1 := cmpf .olt main_v24 main_v25
  let main_c_9 : IVec S_ 1 := constantI S_ 1 1#1
  let main_v27 : IVec S_ 1 := (fun x v => Host.reduce IntOp.andi x v reducesTo_S170x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S32x1024x2 .f32) (main_arg1 : FVec F S32x2x1024x1024 .f32) (main_arg2 : FVec F S32x1024x32 .f32) (main_arg3 : FVec F S170x64 .f32) (main_arg4 : FVec F S64 .f32) (main_arg5 : FVec F S170x32 .f32) (main_arg6 : FVec F S32 .f32) : IVec S_ 1 :=
  let main_v0 : FVec F S32x1024x2 .f32 := Host.absf main_arg0
  let main_cst : FVec F S_ .f32 := constant S_ .f32 0x7F800000#32
  let main_v1 : FVec F S32x1024x2 .f32 := broadcastInDim S32x1024x2 ![] bcast_S_S32x1024x2 main_cst
  let main_v2 : IVec S32x1024x2 1 := cmpf .olt main_v0 main_v1
  let main_c : IVec S_ 1 := constantI S_ 1 1#1
  let main_v3 : IVec S_ 1 := (fun x v => Host.reduce IntOp.andi x v reducesTo_S32x1024x2_S_d0_1_2 h_S_) main_v2 main_c
  let main_v4 : FVec F S32x2x1024x1024 .f32 := Host.absf main_arg1
  let main_cst_0 : FVec F S_ .f32 := constant S_ .f32 0x7F800000#32
  let main_v5 : FVec F S32x2x1024x1024 .f32 := broadcastInDim S32x2x1024x1024 ![] bcast_S_S32x2x1024x1024 main_cst_0
  let main_v6 : IVec S32x2x1024x1024 1 := cmpf .olt main_v4 main_v5
  let main_c_1 : IVec S_ 1 := constantI S_ 1 1#1
  let main_v7 : IVec S_ 1 := (fun x v => Host.reduce IntOp.andi x v reducesTo_S32x2x1024x1024_S_d0_1_2_3 h_S_) main_v6 main_c_1
  let main_v8 : IVec S_ 1 := andi main_v3 main_v7
  let main_v9 : FVec F S32x1024x32 .f32 := Host.absf main_arg2
  let main_cst_2 : FVec F S_ .f32 := constant S_ .f32 0x7F800000#32
  let main_v10 : FVec F S32x1024x32 .f32 := broadcastInDim S32x1024x32 ![] bcast_S_S32x1024x32 main_cst_2
  let main_v11 : IVec S32x1024x32 1 := cmpf .olt main_v9 main_v10
  let main_c_3 : IVec S_ 1 := constantI S_ 1 1#1
  let main_v12 : IVec S_ 1 := (fun x v => Host.reduce IntOp.andi x v reducesTo_S32x1024x32_S_d0_1_2 h_S_) main_v11 main_c_3
  let main_v13 : IVec S_ 1 := andi main_v8 main_v12
  let main_v14 : FVec F S170x64 .f32 := Host.absf main_arg3
  let main_cst_4 : FVec F S_ .f32 := constant S_ .f32 0x7F800000#32
  let main_v15 : FVec F S170x64 .f32 := broadcastInDim S170x64 ![] bcast_S_S170x64 main_cst_4
  let main_v16 : IVec S170x64 1 := cmpf .olt main_v14 main_v15
  fn_part1 (F := F) main_arg4 main_arg5 main_arg6 main_v13 main_v16
-- ==== Kernel.lean ====
abbrev S32x1024x2 : Shape := ⟨3, ![32, 1024, 2]⟩
abbrev S32x2x1024x1024 : Shape := ⟨4, ![32, 2, 1024, 1024]⟩
abbrev S32x1024x32 : Shape := ⟨3, ![32, 1024, 32]⟩
abbrev S170x64 : Shape := ⟨2, ![170, 64]⟩
abbrev S64 : Shape := ⟨1, ![64]⟩
abbrev S170x32 : Shape := ⟨2, ![170, 32]⟩
abbrev S32 : Shape := ⟨1, ![32]⟩
abbrev S32x2x1024 : Shape := ⟨3, ![32, 2, 1024]⟩
abbrev S32x32x1024 : Shape := ⟨3, ![32, 32, 1024]⟩
abbrev S5x34x64 : Shape := ⟨3, ![5, 34, 64]⟩
abbrev S5x34x32 : Shape := ⟨3, ![5, 34, 32]⟩
abbrev S64x1 : Shape := ⟨2, ![64, 1]⟩
abbrev S32x1 : Shape := ⟨2, ![32, 1]⟩
abbrev S2x2x1024 : Shape := ⟨3, ![2, 2, 1024]⟩
abbrev S2x2x1024x1024 : Shape := ⟨4, ![2, 2, 1024, 1024]⟩
abbrev S2x32x1024 : Shape := ⟨3, ![2, 32, 1024]⟩
abbrev S1x2x1024 : Shape := ⟨3, ![1, 2, 1024]⟩
abbrev S2x1024 : Shape := ⟨2, ![2, 1024]⟩
abbrev S1x32x1024 : Shape := ⟨3, ![1, 32, 1024]⟩
abbrev S32x1024 : Shape := ⟨2, ![32, 1024]⟩
abbrev S34x1024 : Shape := ⟨2, ![34, 1024]⟩
abbrev S1x34x64 : Shape := ⟨3, ![1, 34, 64]⟩
abbrev S34x64 : Shape := ⟨2, ![34, 64]⟩
abbrev S64x1024 : Shape := ⟨2, ![64, 1024]⟩
abbrev S1x1x1024x1024 : Shape := ⟨4, ![1, 1, 1024, 1024]⟩
abbrev S1024x1024 : Shape := ⟨2, ![1024, 1024]⟩
abbrev S1x34x32 : Shape := ⟨3, ![1, 34, 32]⟩
abbrev S34x32 : Shape := ⟨2, ![34, 32]⟩

abbrev nBuf : Space → Nat
  | .hbm => 15
  | .vmem => 12
  | .smem => 0
  | _ => 0

abbrev bufTy : (tb : Table) → Fin (tcTables nBuf tb) → BufTy
  | .hbm, ⟨0, _⟩ => ⟨S32x1024x2, .f32⟩
  | .hbm, ⟨1, _⟩ => ⟨S32x2x1024x1024, .f32⟩
  | .hbm, ⟨2, _⟩ => ⟨S32x1024x32, .f32⟩
  | .hbm, ⟨3, _⟩ => ⟨S170x64, .f32⟩
  | .hbm, ⟨4, _⟩ => ⟨S64, .f32⟩
  | .hbm, ⟨5, _⟩ => ⟨S170x32, .f32⟩
  | .hbm, ⟨6, _⟩ => ⟨S32, .f32⟩
  | .hbm, ⟨7, _⟩ => ⟨S32x2x1024, .f32⟩
  | .hbm, ⟨8, _⟩ => ⟨S32x32x1024, .f32⟩
  | .hbm, ⟨9, _⟩ => ⟨S5x34x64, .f32⟩
  | .hbm, ⟨10, _⟩ => ⟨S5x34x32, .f32⟩
  | .hbm, ⟨11, _⟩ => ⟨S64x1, .f32⟩
  | .hbm, ⟨12, _⟩ => ⟨S32x1, .f32⟩
  | .hbm, ⟨13, _⟩ => ⟨S32x32x1024, .f32⟩
  | .hbm, ⟨14, _⟩ => ⟨S32x1024x32, .f32⟩
  | .local _ .vmem, ⟨0, _⟩ => ⟨S2x2x1024, .f32⟩
  | .local _ .vmem, ⟨1, _⟩ => ⟨S2x2x1024, .f32⟩
  | .local _ .vmem, ⟨2, _⟩ => ⟨S2x2x1024x1024, .f32⟩
  | .local _ .vmem, ⟨3, _⟩ => ⟨S2x2x1024x1024, .f32⟩
  | .local _ .vmem, ⟨4, _⟩ => ⟨S2x32x1024, .f32⟩
  | .local _ .vmem, ⟨5, _⟩ => ⟨S2x32x1024, .f32⟩
  | .local _ .vmem, ⟨6, _⟩ => ⟨S5x34x64, .f32⟩
  | .local _ .vmem, ⟨7, _⟩ => ⟨S64x1, .f32⟩
  | .local _ .vmem, ⟨8, _⟩ => ⟨S5x34x32, .f32⟩
  | .local _ .vmem, ⟨9, _⟩ => ⟨S32x1, .f32⟩
  | .local _ .vmem, ⟨10, _⟩ => ⟨S2x32x1024, .f32⟩
  | .local _ .vmem, ⟨11, _⟩ => ⟨S2x32x1024, .f32⟩
  | _, _ => ⟨S32x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x34x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x34x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S32x1024x2_S32x2x1024_0_2_1 : S32x1024x2.Transposes [0, 2, 1] S32x2x1024
  transposes_S32x1024x32_S32x32x1024_0_2_1 : S32x1024x32.Transposes [0, 2, 1] S32x32x1024
  shapeCasts_S170x64_S5x34x64 : S170x64.ShapeCasts S5x34x64
  shapeCasts_S170x32_S5x34x32 : S170x32.ShapeCasts S5x34x32
  shapeCasts_S64_S64x1 : S64.ShapeCasts S64x1
  shapeCasts_S32_S32x1 : S32.ShapeCasts S32x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S2x2x1024_S1x2x1024_0_0_0 : ∀ a, (![0, 0, 0] : Fin 3 → Nat) a + S1x2x1024.size a ≤ S2x2x1024.size a
  h_S1x2x1024 : 0 < S1x2x1024.numel
  shapeCasts_S1x2x1024_S2x1024 : S1x2x1024.ShapeCasts S2x1024
  inb_S2x32x1024_S1x32x1024_0_0_0 : ∀ a, (![0, 0, 0] : Fin 3 → Nat) a + S1x32x1024.size a ≤ S2x32x1024.size a
  h_S1x32x1024 : 0 < S1x32x1024.numel
  shapeCasts_S1x32x1024_S32x1024 : S1x32x1024.ShapeCasts S32x1024
  concatenates_S2x1024_S32x1024_S34x1024_d0 : Shape.Concatenates [S2x1024, S32x1024] S34x1024 0
  inb_S5x34x64_S1x34x64_0_0_0 : ∀ a, (![0, 0, 0] : Fin 3 → Nat) a + S1x34x64.size a ≤ S5x34x64.size a
  h_S1x34x64 : 0 < S1x34x64.numel
  shapeCasts_S1x34x64_S34x64 : S1x34x64.ShapeCasts S34x64
  inb_S2x2x1024x1024_S1x1x1024x1024_0_0_0_0 : ∀ a, (![0, 0, 0, 0] : Fin 4 → Nat) a + S1x1x1024x1024.size a ≤ S2x2x1024x1024.size a
  h_S1x1x1024x1024 : 0 < S1x1x1024x1024.numel
  shapeCasts_S1x1x1024x1024_S1024x1024 : S1x1x1024x1024.ShapeCasts S1024x1024
  inb_S5x34x64_S1x34x64_1_0_0 : ∀ a, (![1, 0, 0] : Fin 3 → Nat) a + S1x34x64.size a ≤ S5x34x64.size a
  inb_S5x34x64_S1x34x64_2_0_0 : ∀ a, (![2, 0, 0] : Fin 3 → Nat) a + S1x34x64.size a ≤ S5x34x64.size a
  inb_S2x2x1024x1024_S1x1x1024x1024_0_1_0_0 : ∀ a, (![0, 1, 0, 0] : Fin 4 → Nat) a + S1x1x1024x1024.size a ≤ S2x2x1024x1024.size a
  inb_S5x34x64_S1x34x64_3_0_0 : ∀ a, (![3, 0, 0] : Fin 3 → Nat) a + S1x34x64.size a ≤ S5x34x64.size a
  inb_S5x34x64_S1x34x64_4_0_0 : ∀ a, (![4, 0, 0] : Fin 3 → Nat) a + S1x34x64.size a ≤ S5x34x64.size a
  broadcasts_S64x1_S64x1024 : S64x1.Broadcasts S64x1024
  slices_S64x1024_o0_0_S32x1024 : S64x1024.Slices ![0, 0] S32x1024
  slices_S64x1024_o32_0_S32x1024 : S64x1024.Slices ![32, 0] S32x1024
  inb_S5x34x32_S1x34x32_0_0_0 : ∀ a, (![0, 0, 0] : Fin 3 → Nat) a + S1x34x32.size a ≤ S5x34x32.size a
  h_S1x34x32 : 0 < S1x34x32.numel
  shapeCasts_S1x34x32_S34x32 : S1x34x32.ShapeCasts S34x32
  inb_S5x34x32_S1x34x32_1_0_0 : ∀ a, (![1, 0, 0] : Fin 3 → Nat) a + S1x34x32.size a ≤ S5x34x32.size a
  inb_S5x34x32_S1x34x32_2_0_0 : ∀ a, (![2, 0, 0] : Fin 3 → Nat) a + S1x34x32.size a ≤ S5x34x32.size a
  inb_S5x34x32_S1x34x32_3_0_0 : ∀ a, (![3, 0, 0] : Fin 3 → Nat) a + S1x34x32.size a ≤ S5x34x32.size a
  inb_S5x34x32_S1x34x32_4_0_0 : ∀ a, (![4, 0, 0] : Fin 3 → Nat) a + S1x34x32.size a ≤ S5x34x32.size a
  broadcasts_S32x1_S32x1024 : S32x1.Broadcasts S32x1024
  shapeCasts_S32x1024_S1x32x1024 : S32x1024.ShapeCasts S1x32x1024
  inb_S2x2x1024_S1x2x1024_1_0_0 : ∀ a, (![1, 0, 0] : Fin 3 → Nat) a + S1x2x1024.size a ≤ S2x2x1024.size a
  inb_S2x32x1024_S1x32x1024_1_0_0 : ∀ a, (![1, 0, 0] : Fin 3 → Nat) a + S1x32x1024.size a ≤ S2x32x1024.size a
  inb_S2x2x1024x1024_S1x1x1024x1024_1_0_0_0 : ∀ a, (![1, 0, 0, 0] : Fin 4 → Nat) a + S1x1x1024x1024.size a ≤ S2x2x1024x1024.size a
  inb_S2x2x1024x1024_S1x1x1024x1024_1_1_0_0 : ∀ a, (![1, 1, 0, 0] : Fin 4 → Nat) a + S1x1x1024x1024.size a ≤ S2x2x1024x1024.size a
  transposes_S32x32x1024_S32x1024x32_0_2_1 : S32x32x1024.Transposes [0, 2, 1] S32x1024x32
  dot_S34x64_S34x1024_S64x1024_0_0_1_1_n_n_wf : DotDims.WF S34x64 S34x1024 S64x1024 [0] [0] [1] [1] [] []
  dot_S34x1024_S1024x1024_S34x1024_1_1_0_0_n_n_wf : DotDims.WF S34x1024 S1024x1024 S34x1024 [1] [1] [0] [0] [] []
  dot_S34x32_S34x1024_S32x1024_0_0_1_1_n_n_wf : DotDims.WF S34x32 S34x1024 S32x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2x1024.size a ≤ S32x2x1024.size a
  hwx0_0 : ∀ i : grid0.Coords, EltTy.bits .f32 = 32 ∨ (Rect.block (s := S32x2x1024) S2x2x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2x1024x1024.size a ≤ S32x2x1024x1024.size a
  hwx0_1 : ∀ i : grid0.Coords, EltTy.bits .f32 = 32 ∨ (Rect.block (s := S32x2x1024x1024) S2x2x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x32x1024.size a ≤ S32x32x1024.size a
  hwx0_2 : ∀ i : grid0.Coords, EltTy.bits .f32 = 32 ∨ (Rect.block (s := S32x32x1024) S2x32x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x34x64.size a ≤ S5x34x64.size a
  hwx0_3 : ∀ i : grid0.Coords, EltTy.bits .f32 = 32 ∨ (Rect.block (s := S5x34x64) S5x34x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x34x32.size a ≤ S5x34x32.size a
  hwx0_5 : ∀ i : grid0.Coords, EltTy.bits .f32 = 32 ∨ (Rect.block (s := S5x34x32) S5x34x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S32x1.size a
  hwx0_6 : ∀ i : grid0.Coords, EltTy.bits .f32 = 32 ∨ (Rect.block (s := S32x1) S32x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x32x1024.size a ≤ S32x32x1024.size a
  hwx0_7 : ∀ i : grid0.Coords, EltTy.bits .f32 = 32 ∨ (Rect.block (s := S32x32x1024) S2x32x1024.size (cc0_transform_7 i) (hinb0_7 i)).WholeWords (EltTy.packing .f32)

variable [Facts₀]

def dot_S34x64_S34x1024_S64x1024_0_0_1_1_n_n : DotDims S34x64 S34x1024 S64x1024 where
  lhsContracting := [0]
  rhsContracting := [0]
  lhsNonContracting := [1]
  rhsNonContracting := [1]
  lhsBatch := []
  rhsBatch := []
  wf := dot_S34x64_S34x1024_S64x1024_0_0_1_1_n_n_wf
def dot_S34x1024_S1024x1024_S34x1024_1_1_0_0_n_n : DotDims S34x1024 S1024x1024 S34x1024 where
  lhsContracting := [1]
  rhsContracting := [1]
  lhsNonContracting := [0]
  rhsNonContracting := [0]
  lhsBatch := []
  rhsBatch := []
  wf := dot_S34x1024_S1024x1024_S34x1024_1_1_0_0_n_n_wf
def dot_S34x32_S34x1024_S32x1024_0_0_1_1_n_n : DotDims S34x32 S34x1024 S32x1024 where
  lhsContracting := [0]
  rhsContracting := [0]
  lhsNonContracting := [1]
  rhsNonContracting := [1]
  lhsBatch := []
  rhsBatch := []
  wf := dot_S34x32_S34x1024_S32x1024_0_0_1_1_n_n_wf

abbrev win0_0 : Pipeline.Window sig grid0 :=
  Pipeline.Window.ofSpec (Memref.whole main_v0) S2x2x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x2x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x32x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5x34x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S5x34x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S32x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S2x32x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x1024x2 : Shape := ⟨3, ![32, 1024, 2]⟩
abbrev S32x2x1024x1024 : Shape := ⟨4, ![32, 2, 1024, 1024]⟩
abbrev S32x1024x32 : Shape := ⟨3, ![32, 1024, 32]⟩
abbrev S170x64 : Shape := ⟨2, ![170, 64]⟩
abbrev S64 : Shape := ⟨1, ![64]⟩
abbrev S170x32 : Shape := ⟨2, ![170, 32]⟩
abbrev S32 : Shape := ⟨1, ![32]⟩
abbrev S32x1024x34 : Shape := ⟨3, ![32, 1024, 34]⟩
abbrev S32x1x1024x1024 : Shape := ⟨4, ![32, 1, 1024, 1024]⟩
abbrev S32x1024x1024 : Shape := ⟨3, ![32, 1024, 1024]⟩
abbrev S32x1024x170 : Shape := ⟨3, ![32, 1024, 170]⟩
abbrev S32x1024x64 : Shape := ⟨3, ![32, 1024, 64]⟩
abbrev S1x1x64 : Shape := ⟨3, ![1, 1, 64]⟩
abbrev S_ : Shape := ⟨0, ![]⟩
abbrev S1x1x32 : Shape := ⟨3, ![1, 1, 32]⟩

abbrev nBuf : Space → Nat
  | .hbm => 53
  | .vmem => 0
  | .smem => 0
  | _ => 0

abbrev bufTy : (tb : Table) → Fin (tcTables nBuf tb) → BufTy
  | .hbm, ⟨0, _⟩ => ⟨S32x1024x2, .f32⟩
  | .hbm, ⟨1, _⟩ => ⟨S32x2x1024x1024, .f32⟩
  | .hbm, ⟨2, _⟩ => ⟨S32x1024x32, .f32⟩
  | .hbm, ⟨3, _⟩ => ⟨S170x64, .f32⟩
  | .hbm, ⟨4, _⟩ => ⟨S64, .f32⟩
  | .hbm, ⟨5, _⟩ => ⟨S170x32, .f32⟩
  | .hbm, ⟨6, _⟩ => ⟨S32, .f32⟩
  | .hbm, ⟨7, _⟩ => ⟨S32x1024x34, .f32⟩
  | .hbm, ⟨8, _⟩ => ⟨S32x1x1024x1024, .f32⟩
  | .hbm, ⟨9, _⟩ => ⟨S32x1024x1024, .f32⟩
  | .hbm, ⟨10, _⟩ => ⟨S32x1024x34, .f32⟩
  | .hbm, ⟨11, _⟩ => ⟨S32x1024x34, .f32⟩
  | .hbm, ⟨12, _⟩ => ⟨S32x1x1024x1024, .f32⟩
  | .hbm, ⟨13, _⟩ => ⟨S32x1024x1024, .f32⟩
  | .hbm, ⟨14, _⟩ => ⟨S32x1024x34, .f32⟩
  | .hbm, ⟨15, _⟩ => ⟨S32x1024x34, .f32⟩
  | .hbm, ⟨16, _⟩ => ⟨S32x1024x170, .f32⟩
  | .hbm, ⟨17, _⟩ => ⟨S32x1024x64, .f32⟩
  | .hbm, ⟨18, _⟩ => ⟨S1x1x64, .f32⟩
  | .hbm, ⟨19, _⟩ => ⟨S32x1024x64, .f32⟩
  | .hbm, ⟨20, _⟩ => ⟨S32x1024x64, .f32⟩
  | .hbm, ⟨21, _⟩ => ⟨S32x1024x64, .f32⟩
  | .hbm, ⟨22, _⟩ => ⟨S32x1024x64, .f32⟩
  | .hbm, ⟨23, _⟩ => ⟨S_, .f32⟩
  | .hbm, ⟨24, _⟩ => ⟨S32x1024x64, .f32⟩
  | .hbm, ⟨25, _⟩ => ⟨S32x1024x64, .f32⟩
  | .hbm, ⟨26, _⟩ => ⟨S_, .f32⟩
  | .hbm, ⟨27, _⟩ => ⟨S32x1024x64, .f32⟩
  | .hbm, ⟨28, _⟩ => ⟨S32x1024x64, .f32⟩
  | .hbm, ⟨29, _⟩ => ⟨S32x1024x32, .f32⟩
  | .hbm, ⟨30, _⟩ => ⟨S32x1024x32, .f32⟩
  | .hbm, ⟨31, _⟩ => ⟨S32x1024x32, .f32⟩
  | .hbm, ⟨32, _⟩ => ⟨S32x1024x34, .f32⟩
  | .hbm, ⟨33, _⟩ => ⟨S32x1x1024x1024, .f32⟩
  | .hbm, ⟨34, _⟩ => ⟨S32x1024x1024, .f32⟩
  | .hbm, ⟨35, _⟩ => ⟨S32x1024x34, .f32⟩
  | .hbm, ⟨36, _⟩ => ⟨S32x1024x34, .f32⟩
  | .hbm, ⟨37, _⟩ => ⟨S32x1x1024x1024, .f32⟩
  | .hbm, ⟨38, _⟩ => ⟨S32x1024x1024, .f32⟩
  | .hbm, ⟨39, _⟩ => ⟨S32x1024x34, .f32⟩
  | .hbm, ⟨40, _⟩ => ⟨S32x1024x34, .f32⟩
  | .hbm, ⟨41, _⟩ => ⟨S32x1024x170, .f32⟩
  | .hbm, ⟨42, _⟩ => ⟨S32x1024x32, .f32⟩
  | .hbm, ⟨43, _⟩ => ⟨S1x1x32, .f32⟩
  | .hbm, ⟨44, _⟩ => ⟨S32x1024x32, .f32⟩
  | .hbm, ⟨45, _⟩ => ⟨S32x1024x32, .f32⟩
  | .hbm, ⟨46, _⟩ => ⟨S32x1024x32, .f32⟩
  | .hbm, ⟨47, _⟩ => ⟨S32x1024x32, .f32⟩
  | .hbm, ⟨48, _⟩ => ⟨S_, .f32⟩
  | .hbm, ⟨49, _⟩ => ⟨S32x1024x32, .f32⟩
  | .hbm, ⟨50, _⟩ => ⟨S32x1024x32, .f32⟩
  | .hbm, ⟨51, _⟩ => ⟨S32x1024x32, .f32⟩
  | .hbm, ⟨52, _⟩ => ⟨S32x1024x32, .f32⟩
  | _, _ => ⟨S32x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_1 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]

class Facts₀ : Prop where
  concatenates_S32x1024x2_S32x1024x32_S32x1024x34_d2 : Shape.Concatenates [S32x1024x2, S32x1024x32] S32x1024x34 2
  slices_S32x2x1024x1024_S32x1x1024x1024_0_0_0_0 : S32x2x1024x1024.Slices ![0, 0, 0, 0] S32x1x1024x1024
  shapeCasts_S32x1x1024x1024_S32x1024x1024 : S32x1x1024x1024.ShapeCasts S32x1024x1024
  slices_S32x2x1024x1024_S32x1x1024x1024_0_1_0_0 : S32x2x1024x1024.Slices ![0, 1, 0, 0] S32x1x1024x1024
  concatenates_S32x1024x34_S32x1024x34_S32x1024x34_S32x1024x34_S32x1024x34_S32x1024x170_d2 : Shape.Concatenates [S32x1024x34, S32x1024x34, S32x1024x34, S32x1024x34, S32x1024x34] S32x1024x170 2
  bcast_S64_S1x1x64_2 : S64.BroadcastsInDim S1x1x64 (![2] : Fin 1 → Fin S1x1x64.rank)
  bcast_S1x1x64_S32x1024x64_0_1_2 : S1x1x64.BroadcastsInDim S32x1024x64 (![0, 1, 2] : Fin 3 → Fin S32x1024x64.rank)
  bcast_S_S32x1024x64 : S_.BroadcastsInDim S32x1024x64 (![] : Fin 0 → Fin S32x1024x64.rank)
  slices_S32x1024x64_S32x1024x32_0_0_0 : S32x1024x64.Slices ![0, 0, 0] S32x1024x32
  slices_S32x1024x64_S32x1024x32_0_0_32 : S32x1024x64.Slices ![0, 0, 32] S32x1024x32
  bcast_S32_S1x1x32_2 : S32.BroadcastsInDim S1x1x32 (![2] : Fin 1 → Fin S1x1x32.rank)
  bcast_S1x1x32_S32x1024x32_0_1_2 : S1x1x32.BroadcastsInDim S32x1024x32 (![0, 1, 2] : Fin 3 → Fin S32x1024x32.rank)
  bcast_S_S32x1024x32 : S_.BroadcastsInDim S32x1024x32 (![] : Fin 0 → Fin S32x1024x32.rank)
  dot_S32x1024x1024_S32x1024x34_S32x1024x34_2_1_1_2_0_0_wf : DotDims.WF S32x1024x1024 S32x1024x34 S32x1024x34 [2] [1] [1] [2] [0] [0]
  dot_S32x1024x170_S170x64_S32x1024x64_2_0_01_1_n_n_wf : DotDims.WF S32x1024x170 S170x64 S32x1024x64 [2] [0] [0, 1] [1] [] []
  dot_S32x1024x170_S170x32_S32x1024x32_2_0_01_1_n_n_wf : DotDims.WF S32x1024x170 S170x32 S32x1024x32 [2] [0] [0, 1] [1] [] []

variable [Facts₀]

def dot_S32x1024x1024_S32x1024x34_S32x1024x34_2_1_1_2_0_0 : DotDims S32x1024x1024 S32x1024x34 S32x1024x34 where
  lhsContracting := [2]
  rhsContracting := [1]
  lhsNonContracting := [1]
  rhsNonContracting := [2]
  lhsBatch := [0]
  rhsBatch := [0]
  wf := dot_S32x1024x1024_S32x1024x34_S32x1024x34_2_1_1_2_0_0_wf
def dot_S32x1024x170_S170x64_S32x1024x64_2_0_01_1_n_n : DotDims S32x1024x170 S170x64 S32x1024x64 where
  lhsContracting := [2]
  rhsContracting := [0]
  lhsNonContracting := [0, 1]
  rhsNonContracting := [1]
  lhsBatch := []
  rhsBatch := []
  wf := dot_S32x1024x170_S170x64_S32x1024x64_2_0_01_1_n_n_wf
def dot_S32x1024x170_S170x32_S32x1024x32_2_0_01_1_n_n : DotDims S32x1024x170 S170x32 S32x1024x32 where
  lhsContracting := [2]
  rhsContracting := [0]
  lhsNonContracting := [0, 1]
  rhsNonContracting := [1]
  lhsBatch := []
  rhsBatch := []
  wf := dot_S32x1024x170_S170x32_S32x1024x32_2_0_01_1_n_n_wf

class Facts : Prop extends Facts₀ where

variable [Facts]
-- ==== Proof.KernelOps.lean ====
/-
  The kernel's vector operations for one batch, in its transposed layout (channels on rows, the 1024 nodes on
  lanes), each read at an index over the extended reals.

  `hopT X A` is the kernel's diffusion step `X Aᵀ`: at (c, n) the sum over m of `X (c, m) * A (n, m)`.
  `projRu W X` / `projC W X` are its projections `Wᵀ X`: at (o, n) the sum over c of `W (c, o) * X (c, n)`.
  `catT x s` stacks a 2-row and a 32-row block. Each matrix product accumulates into a zero vector, so at the
  ideal instance it is the bare sum of products over the one contracted axis.
-/
import proofs.«102497_j3676492005530_2_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.Cell

open Cert.KernelIdeal Cert.KernelIdeal.Gen Idealize.ShloMosaic Idealize.ShloMosaic.ValueIdx

variable {F : FTy → Type} [FloatOps F]

/-- The diffusion step in the transposed layout: `X Aᵀ`, contracting the lanes of both operands. -/
def hopT (X : FVec F S34x1024 .f32) (A : FVec F S1024x1024 .f32) : FVec F S34x1024 .f32 :=
  matmul dot_S34x1024_S1024x1024_S34x1024_1_1_0_0_n_n none X A (constant S34x1024 .f32 0x00000000#32)

/-- The projection to the 64 gate channels: `Wᵀ X`, contracting the 34 channel rows of both operands. -/
def projRu (W : FVec F S34x64 .f32) (X : FVec F S34x1024 .f32) : FVec F S64x1024 .f32 :=
  matmul dot_S34x64_S34x1024_S64x1024_0_0_1_1_n_n none W X (constant S64x1024 .f32 0x00000000#32)

/-- The projection to the 32 candidate channels. -/
def projC (W : FVec F S34x32 .f32) (X : FVec F S34x1024 .f32) : FVec F S32x1024 .f32 :=
  matmul dot_S34x32_S34x1024_S32x1024_0_0_1_1_n_n none W X (constant S32x1024 .f32 0x00000000#32)

/-- The 2 input rows stacked on the 32 state rows. -/
def catT (x : FVec F S2x1024 .f32) (s : FVec F S32x1024 .f32) : FVec F S34x1024 .f32 :=
  concatenate S34x1024 0 [⟨S2x1024, x⟩, ⟨S32x1024, s⟩] concatenates_S2x1024_S32x1024_S34x1024_d0

/-! ## Read at an index, at the ideal instance -/

theorem hopT_lhs_free (i : S34x1024.Idx) (q : dot_S34x1024_S1024x1024_S34x1024_1_1_0_0_n_n.contr.Idx) : (dot_S34x1024_S1024x1024_S34x1024_1_1_0_0_n_n.lhsIdx i q 0).val = (i 0).val := by
  unfold DotDims.lhsIdx
  rw [dif_neg (show ¬(0 : Fin S34x1024.rank) ∈ dot_S34x1024_S1024x1024_S34x1024_1_1_0_0_n_n.lhsBatch by decide), dif_pos (show (0 : Fin S34x1024.rank) ∈ dot_S34x1024_S1024x1024_S34x1024_1_1_0_0_n_n.lhsNonContracting by decide)]
  rfl
theorem hopT_lhs_contr (i : S34x1024.Idx) (q : dot_S34x1024_S1024x1024_S34x1024_1_1_0_0_n_n.contr.Idx) : (dot_S34x1024_S1024x1024_S34x1024_1_1_0_0_n_n.lhsIdx i q 1).val = (q ⟨0, by decide⟩).val :=
  dot_S34x1024_S1024x1024_S34x1024_1_1_0_0_n_n.lhsIdx_val_of_single rfl i q
theorem hopT_rhs_free (i : S34x1024.Idx) (q : dot_S34x1024_S1024x1024_S34x1024_1_1_0_0_n_n.contr.Idx) : (dot_S34x1024_S1024x1024_S34x1024_1_1_0_0_n_n.rhsIdx i q 0).val = (i 1).val := by
  unfold DotDims.rhsIdx
  rw [dif_neg (show ¬(0 : Fin S1024x1024.rank) ∈ dot_S34x1024_S1024x1024_S34x1024_1_1_0_0_n_n.rhsBatch by decide), dif_pos (show (0 : Fin S1024x1024.rank) ∈ dot_S34x1024_S1024x1024_S34x1024_1_1_0_0_n_n.rhsNonContracting by decide)]
  rfl
theorem hopT_rhs_contr (i : S34x1024.Idx) (q : dot_S34x1024_S1024x1024_S34x1024_1_1_0_0_n_n.contr.Idx) : (dot_S34x1024_S1024x1024_S34x1024_1_1_0_0_n_n.rhsIdx i q 1).val = (q ⟨0, by decide⟩).val :=
  dot_S34x1024_S1024x1024_S34x1024_1_1_0_0_n_n.rhsIdx_val_of_single rfl i q

/-- The diffusion step at (c, n): the sum over the lanes m of `X (c, m) * A (n, m)`. -/
theorem hopT_apply (X : FVec Ideal S34x1024 .f32) (A : FVec Ideal S1024x1024 .f32) (c : Fin 34) (n : Fin 1024) :
    hopT X A (ix2 c n) = ∑ k : Fin 1024, X (ix2 c k) * A (ix2 n k) := by
  unfold hopT
  simp only [matmul]
  rw [Ideal.matmul_constant_zero_apply, ← Equiv.sum_comp (contrEquiv1 dot_S34x1024_S1024x1024_S34x1024_1_1_0_0_n_n 1024 rfl rfl).symm]
  refine Finset.sum_congr rfl fun k _ => ?_
  have hk := contrEquiv1_symm_val dot_S34x1024_S1024x1024_S34x1024_1_1_0_0_n_n 1024 rfl rfl k
  have el : dot_S34x1024_S1024x1024_S34x1024_1_1_0_0_n_n.lhsIdx (ix2 c n) ((contrEquiv1 dot_S34x1024_S1024x1024_S34x1024_1_1_0_0_n_n 1024 rfl rfl).symm k) = ix2 c k := funext fun a => Fin.ext (by
    match a with
    | ⟨0, _⟩ => exact hopT_lhs_free _ _
    | ⟨1, _⟩ => exact (hopT_lhs_contr _ _).trans hk)
  have er : dot_S34x1024_S1024x1024_S34x1024_1_1_0_0_n_n.rhsIdx (ix2 c n) ((contrEquiv1 dot_S34x1024_S1024x1024_S34x1024_1_1_0_0_n_n 1024 rfl rfl).symm k) = ix2 n k := funext fun a => Fin.ext (by
    match a with
    | ⟨0, _⟩ => exact hopT_rhs_free _ _
    | ⟨1, _⟩ => exact (hopT_rhs_contr _ _).trans hk)
  rw [el, er]

theorem projRu_lhs_free (i : S64x1024.Idx) (q : dot_S34x64_S34x1024_S64x1024_0_0_1_1_n_n.contr.Idx) : (dot_S34x64_S34x1024_S64x1024_0_0_1_1_n_n.lhsIdx i q 1).val = (i 0).val := by
  unfold DotDims.lhsIdx
  rw [dif_neg (show ¬(1 : Fin S34x64.rank) ∈ dot_S34x64_S34x1024_S64x1024_0_0_1_1_n_n.lhsBatch by decide), dif_pos (show (1 : Fin S34x64.rank) ∈ dot_S34x64_S34x1024_S64x1024_0_0_1_1_n_n.lhsNonContracting by decide)]
  rfl
theorem projRu_lhs_contr (i : S64x1024.Idx) (q : dot_S34x64_S34x1024_S64x1024_0_0_1_1_n_n.contr.Idx) : (dot_S34x64_S34x1024_S64x1024_0_0_1_1_n_n.lhsIdx i q 0).val = (q ⟨0, by decide⟩).val :=
  dot_S34x64_S34x1024_S64x1024_0_0_1_1_n_n.lhsIdx_val_of_single rfl i q
theorem projRu_rhs_free (i : S64x1024.Idx) (q : dot_S34x64_S34x1024_S64x1024_0_0_1_1_n_n.contr.Idx) : (dot_S34x64_S34x1024_S64x1024_0_0_1_1_n_n.rhsIdx i q 1).val = (i 1).val := by
  unfold DotDims.rhsIdx
  rw [dif_neg (show ¬(1 : Fin S34x1024.rank) ∈ dot_S34x64_S34x1024_S64x1024_0_0_1_1_n_n.rhsBatch by decide), dif_pos (show (1 : Fin S34x1024.rank) ∈ dot_S34x64_S34x1024_S64x1024_0_0_1_1_n_n.rhsNonContracting by decide)]
  rfl
theorem projRu_rhs_contr (i : S64x1024.Idx) (q : dot_S34x64_S34x1024_S64x1024_0_0_1_1_n_n.contr.Idx) : (dot_S34x64_S34x1024_S64x1024_0_0_1_1_n_n.rhsIdx i q 0).val = (q ⟨0, by decide⟩).val :=
  dot_S34x64_S34x1024_S64x1024_0_0_1_1_n_n.rhsIdx_val_of_single rfl i q

/-- The gate projection at (o, n): the sum over the channel rows c of `W (c, o) * X (c, n)`. -/
theorem projRu_apply (W : FVec Ideal S34x64 .f32) (X : FVec Ideal S34x1024 .f32) (o : Fin 64) (n : Fin 1024) :
    projRu W X (ix2 o n) = ∑ k : Fin 34, W (ix2 k o) * X (ix2 k n) := by
  unfold projRu
  simp only [matmul]
  rw [Ideal.matmul_constant_zero_apply, ← Equiv.sum_comp (contrEquiv1 dot_S34x64_S34x1024_S64x1024_0_0_1_1_n_n 34 rfl rfl).symm]
  refine Finset.sum_congr rfl fun k _ => ?_
  have hk := contrEquiv1_symm_val dot_S34x64_S34x1024_S64x1024_0_0_1_1_n_n 34 rfl rfl k
  have el : dot_S34x64_S34x1024_S64x1024_0_0_1_1_n_n.lhsIdx (ix2 o n) ((contrEquiv1 dot_S34x64_S34x1024_S64x1024_0_0_1_1_n_n 34 rfl rfl).symm k) = ix2 k o := funext fun a => Fin.ext (by
    match a with
    | ⟨1, _⟩ => exact projRu_lhs_free _ _
    | ⟨0, _⟩ => exact (projRu_lhs_contr _ _).trans hk)
  have er : dot_S34x64_S34x1024_S64x1024_0_0_1_1_n_n.rhsIdx (ix2 o n) ((contrEquiv1 dot_S34x64_S34x1024_S64x1024_0_0_1_1_n_n 34 rfl rfl).symm k) = ix2 k n := funext fun a => Fin.ext (by
    match a with
    | ⟨1, _⟩ => exact projRu_rhs_free _ _
    | ⟨0, _⟩ => exact (projRu_rhs_contr _ _).trans hk)
  rw [el, er]

theorem projC_lhs_free (i : S32x1024.Idx) (q : dot_S34x32_S34x1024_S32x1024_0_0_1_1_n_n.contr.Idx) : (dot_S34x32_S34x1024_S32x1024_0_0_1_1_n_n.lhsIdx i q 1).val = (i 0).val := by
  unfold DotDims.lhsIdx
  rw [dif_neg (show ¬(1 : Fin S34x32.rank) ∈ dot_S34x32_S34x1024_S32x1024_0_0_1_1_n_n.lhsBatch by decide), dif_pos (show (1 : Fin S34x32.rank) ∈ dot_S34x32_S34x1024_S32x1024_0_0_1_1_n_n.lhsNonContracting by decide)]
  rfl
theorem projC_lhs_contr (i : S32x1024.Idx) (q : dot_S34x32_S34x1024_S32x1024_0_0_1_1_n_n.contr.Idx) : (dot_S34x32_S34x1024_S32x1024_0_0_1_1_n_n.lhsIdx i q 0).val = (q ⟨0, by decide⟩).val :=
  dot_S34x32_S34x1024_S32x1024_0_0_1_1_n_n.lhsIdx_val_of_single rfl i q
theorem projC_rhs_free (i : S32x1024.Idx) (q : dot_S34x32_S34x1024_S32x1024_0_0_1_1_n_n.contr.Idx) : (dot_S34x32_S34x1024_S32x1024_0_0_1_1_n_n.rhsIdx i q 1).val = (i 1).val := by
  unfold DotDims.rhsIdx
  rw [dif_neg (show ¬(1 : Fin S34x1024.rank) ∈ dot_S34x32_S34x1024_S32x1024_0_0_1_1_n_n.rhsBatch by decide), dif_pos (show (1 : Fin S34x1024.rank) ∈ dot_S34x32_S34x1024_S32x1024_0_0_1_1_n_n.rhsNonContracting by decide)]
  rfl
theorem projC_rhs_contr (i : S32x1024.Idx) (q : dot_S34x32_S34x1024_S32x1024_0_0_1_1_n_n.contr.Idx) : (dot_S34x32_S34x1024_S32x1024_0_0_1_1_n_n.rhsIdx i q 0).val = (q ⟨0, by decide⟩).val :=
  dot_S34x32_S34x1024_S32x1024_0_0_1_1_n_n.rhsIdx_val_of_single rfl i q

/-- The candidate projection at (o, n). -/
theorem projC_apply (W : FVec Ideal S34x32 .f32) (X : FVec Ideal S34x1024 .f32) (o : Fin 32) (n : Fin 1024) :
    projC W X (ix2 o n) = ∑ k : Fin 34, W (ix2 k o) * X (ix2 k n) := by
  unfold projC
  simp only [matmul]
  rw [Ideal.matmul_constant_zero_apply, ← Equiv.sum_comp (contrEquiv1 dot_S34x32_S34x1024_S32x1024_0_0_1_1_n_n 34 rfl rfl).symm]
  refine Finset.sum_congr rfl fun k _ => ?_
  have hk := contrEquiv1_symm_val dot_S34x32_S34x1024_S32x1024_0_0_1_1_n_n 34 rfl rfl k
  have el : dot_S34x32_S34x1024_S32x1024_0_0_1_1_n_n.lhsIdx (ix2 o n) ((contrEquiv1 dot_S34x32_S34x1024_S32x1024_0_0_1_1_n_n 34 rfl rfl).symm k) = ix2 k o := funext fun a => Fin.ext (by
    match a with
    | ⟨1, _⟩ => exact projC_lhs_free _ _
    | ⟨0, _⟩ => exact (projC_lhs_contr _ _).trans hk)
  have er : dot_S34x32_S34x1024_S32x1024_0_0_1_1_n_n.rhsIdx (ix2 o n) ((contrEquiv1 dot_S34x32_S34x1024_S32x1024_0_0_1_1_n_n 34 rfl rfl).symm k) = ix2 k n := funext fun a => Fin.ext (by
    match a with
    | ⟨1, _⟩ => exact projC_rhs_free _ _
    | ⟨0, _⟩ => exact (projC_rhs_contr _ _).trans hk)
  rw [el, er]

/-- The stacked block at a row below 2 is the input block's row. -/
theorem catT_apply_lo {α : Type} (x : S2x1024.Idx → α) (s : S32x1024.Idx → α) (c : Fin 34) (n : Fin 1024) (h : c.val < 2) :
    concatenate S34x1024 0 [⟨S2x1024, x⟩, ⟨S32x1024, s⟩] concatenates_S2x1024_S32x1024_S34x1024_d0 (ix2 c n) = x (ix2 ⟨c.val, h⟩ n) :=
  concatenate_pair_apply_left (0 : Fin S34x1024.rank) x s concatenates_S2x1024_S32x1024_S34x1024_d0 (ix2 c n) rfl (ix2 ⟨c.val, h⟩ n)
    (fun b => match b with | ⟨0, _⟩ => rfl | ⟨1, _⟩ => rfl)

/-- The stacked block at a row from 2 on is the state block's row, two less. -/
theorem catT_apply_hi {α : Type} (x : S2x1024.Idx → α) (s : S32x1024.Idx → α) (c : Fin 34) (n : Fin 1024) (h : ¬ c.val < 2) :
    concatenate S34x1024 0 [⟨S2x1024, x⟩, ⟨S32x1024, s⟩] concatenates_S2x1024_S32x1024_S34x1024_d0 (ix2 c n)
      = s (ix2 ⟨c.val - 2, by have := c.isLt; omega⟩ n) :=
  concatenate_pair_apply_right (0 : Fin S34x1024.rank) x s concatenates_S2x1024_S32x1024_S34x1024_d0 (ix2 c n) rfl rfl
    (ix2 ⟨c.val - 2, by have := c.isLt; omega⟩ n)
    (fun b hb => match b, hb with | ⟨0, _⟩, hb => absurd rfl hb | ⟨1, _⟩, _ => rfl)
    (by show c.val - 2 + 2 = c.val; omega)

end Cert.KernelIdeal.Cell

end
-- ==== Proof.Spec.lean ====
/-
  The diffusion-convolutional GRU cell as plain functions of one batch's data, over the extended reals.

  For one batch: node features `u n c` (2 input channels) and `s n h` (32 hidden channels), two diffusion
  matrices `A0`, `A1` (1024 x 1024), weights with 170 = 5 * 34 rows and a bias per output channel.
  A graph convolution of a 34-channel node signal `X` joins the five signals
  `X, A0 X, A0 (A0 X), A1 X, A1 (A1 X)` along the channel axis (170 channels) and multiplies by the weight matrix;
  here it is written with the 170-term sum already split into its five blocks of 34 rows, `lin`, and `sum_rows`
  is the re-bracketing that joins the two spellings: a finite sum over `Fin 170` is the sum of its five
  consecutive stretches of 34, which needs only that addition is commutative and associative.
-/
import Idealize.ShloMosaic.PureOps.Ideal
import Idealize.ShloMosaic.Lib.IdealHost

noncomputable section

namespace Cert.Dcgru

open Idealize.ShloMosaic

/-- Two node signals joined along the channel axis: channels 0, 1 from `u`, channels 2 … 33 from `v`. -/
def cat (u : Fin 1024 → Fin 2 → EReal) (v : Fin 1024 → Fin 32 → EReal) (n : Fin 1024) (c : Fin 34) : EReal :=
  if h : c.val < 2 then u n ⟨c.val, h⟩ else v n ⟨c.val - 2, by have := c.isLt; omega⟩

/-- One diffusion step: `(A X) n c = ∑ m, A n m * X m c`. -/
def hop (A : Fin 1024 → Fin 1024 → EReal) (X : Fin 1024 → Fin 34 → EReal) (n : Fin 1024) (c : Fin 34) : EReal :=
  ∑ m : Fin 1024, A n m * X m c

/-- Row `34 k + c` of a weight matrix of 170 rows: channel `c` of the `k`-th joined signal. -/
def wrow (k : Fin 5) (c : Fin 34) : Fin 170 := ⟨k.val * 34 + c.val, by have := k.isLt; have := c.isLt; omega⟩

/-- A sum over the 170 rows is the sum of the sums over its five stretches of 34 rows. -/
theorem sum_rows {M : Type*} [AddCommMonoid M] (g : Fin 170 → M) :
    ∑ f : Fin 170, g f = ((((∑ c : Fin 34, g (wrow 0 c)) + ∑ c : Fin 34, g (wrow 1 c)) + ∑ c : Fin 34, g (wrow 2 c))
      + ∑ c : Fin 34, g (wrow 3 c)) + ∑ c : Fin 34, g (wrow 4 c) := by
  have e : ∑ f : Fin 170, g f = ∑ p : Fin 5 × Fin 34, g (wrow p.1 p.2) := by
    refine (Fintype.sum_equiv (finProdFinEquiv (m := 5) (n := 34)) (fun p => g (wrow p.1 p.2)) g ?_).symm
    rintro ⟨k, c⟩
    refine congrArg g (Fin.ext ?_)
    show k.val * 34 + c.val = c.val + 34 * k.val
    omega
  rw [e, Fintype.sum_prod_type, Fin.sum_univ_five]

/-- The linear layer over five joined 34-channel signals, the 170-term sum split into its five stretches. -/
def lin {O : Nat} (X0 X1 X2 X3 X4 : Fin 1024 → Fin 34 → EReal) (W : Fin 170 → Fin O → EReal) (bias : Fin O → EReal)
    (n : Fin 1024) (o : Fin O) : EReal :=
  (((((∑ c : Fin 34, X0 n c * W (wrow 0 c) o) + ∑ c : Fin 34, X1 n c * W (wrow 1 c) o) + ∑ c : Fin 34, X2 n c * W (wrow 2 c) o)
    + ∑ c : Fin 34, X3 n c * W (wrow 3 c) o) + ∑ c : Fin 34, X4 n c * W (wrow 4 c) o) + bias o

/-- The graph convolution: the linear layer of `X, A0 X, A0 (A0 X), A1 X, A1 (A1 X)`. -/
def gconv {O : Nat} (A0 A1 : Fin 1024 → Fin 1024 → EReal) (X : Fin 1024 → Fin 34 → EReal) (W : Fin 170 → Fin O → EReal)
    (bias : Fin O → EReal) : Fin 1024 → Fin O → EReal :=
  lin X (hop A0 X) (hop A0 (hop A0 X)) (hop A1 X) (hop A1 (hop A1 X)) W bias

/-- The two gates, one array of 64 channels: the logistic function of the first graph convolution. -/
def gates (u : Fin 1024 → Fin 2 → EReal) (s : Fin 1024 → Fin 32 → EReal) (A0 A1 : Fin 1024 → Fin 1024 → EReal)
    (Wru : Fin 170 → Fin 64 → EReal) (bru : Fin 64 → EReal) (n : Fin 1024) (o : Fin 64) : EReal :=
  Ideal.logistic (gconv A0 A1 (cat u s) Wru bru n o)

/-- The reset gate: channels 0 … 31 of the gates. -/
def rgate (u : Fin 1024 → Fin 2 → EReal) (s : Fin 1024 → Fin 32 → EReal) (A0 A1 : Fin 1024 → Fin 1024 → EReal)
    (Wru : Fin 170 → Fin 64 → EReal) (bru : Fin 64 → EReal) (n : Fin 1024) (h : Fin 32) : EReal :=
  gates u s A0 A1 Wru bru n ⟨h.val, by have := h.isLt; omega⟩

/-- The update gate: channels 32 … 63 of the gates. -/
def ugate (u : Fin 1024 → Fin 2 → EReal) (s : Fin 1024 → Fin 32 → EReal) (A0 A1 : Fin 1024 → Fin 1024 → EReal)
    (Wru : Fin 170 → Fin 64 → EReal) (bru : Fin 64 → EReal) (n : Fin 1024) (h : Fin 32) : EReal :=
  gates u s A0 A1 Wru bru n ⟨32 + h.val, by have := h.isLt; omega⟩

/-- The candidate state: tanh of the second graph convolution, of the inputs joined with the reset states. -/
def cand (u : Fin 1024 → Fin 2 → EReal) (s : Fin 1024 → Fin 32 → EReal) (A0 A1 : Fin 1024 → Fin 1024 → EReal)
    (Wru : Fin 170 → Fin 64 → EReal) (bru : Fin 64 → EReal) (Wc : Fin 170 → Fin 32 → EReal) (bc : Fin 32 → EReal)
    (n : Fin 1024) (h : Fin 32) : EReal :=
  Ideal.tanh (gconv A0 A1 (cat u fun n' h' => rgate u s A0 A1 Wru bru n' h' * s n' h') Wc bc n h)

/-- The new state of one batch: `z * s + (1 - z) * c`, the one the f32 pattern `0x3F800000`. -/
def cell (u : Fin 1024 → Fin 2 → EReal) (s : Fin 1024 → Fin 32 → EReal) (A0 A1 : Fin 1024 → Fin 1024 → EReal)
    (Wru : Fin 170 → Fin 64 → EReal) (bru : Fin 64 → EReal) (Wc : Fin 170 → Fin 32 → EReal) (bc : Fin 32 → EReal)
    (n : Fin 1024) (h : Fin 32) : EReal :=
  ugate u s A0 A1 Wru bru n h * s n h
    + (Ideal.ofBits .f32 0x3F800000#32 - ugate u s A0 A1 Wru bru n h) * cand u s A0 A1 Wru bru Wc bc n h

/-- The logistic function spelt with the f32 pattern of one, the way a host program expands it. -/
theorem logistic_expanded (x : EReal) :
    Ideal.div (Ideal.ofBits .f32 0x3F800000#32) (Ideal.ofBits .f32 0x3F800000#32 + Ideal.exp (-x)) = Ideal.logistic x := by
  rw [Ideal.ofBits_one_f32]; rfl

end Cert.Dcgru

end
-- ==== Proof.KernelCell.lean ====
/-
  One batch of the kernel's body as ONE vector expression (`cellT`, in the transposed layout: 32 state rows, 1024
  node lanes), and that expression read at an index over the extended reals: it is the cell of Spec.lean at
  (node, channel) swapped — every matrix product of the kernel is the same sum of products as the cell's with the
  two factors of each product exchanged, and the five projections the kernel adds up one after the other are the
  five stretches of the cell's linear layer.
-/
import proofs.«102497_j3676492005530_2_alg».proof.Proof.KernelOps
import proofs.«102497_j3676492005530_2_alg».proof.Proof.Spec

noncomputable section

namespace Cert.KernelIdeal.Cell

open Cert.KernelIdeal Cert.KernelIdeal.Gen Idealize.ShloMosaic Idealize.ShloMosaic.ValueIdx Cert.Dcgru

variable {F : FTy → Type} [FloatOps F]

/-- The graph convolution to the 64 gate channels: five projections added up in order, then the bias column
    broadcast along the lanes. -/
def convRuT (X : FVec F S34x1024 .f32) (A0 A1 : FVec F S1024x1024 .f32) (W0 W1 W2 W3 W4 : FVec F S34x64 .f32)
    (b : FVec F S64x1 .f32) : FVec F S64x1024 .f32 :=
  addf (addf (addf (addf (addf (projRu W0 X) (projRu W1 (hopT X A0))) (projRu W2 (hopT (hopT X A0) A0)))
    (projRu W3 (hopT X A1))) (projRu W4 (hopT (hopT X A1) A1))) (broadcastTo S64x1024 b broadcasts_S64x1_S64x1024)

/-- The graph convolution to the 32 candidate channels. -/
def convCT (X : FVec F S34x1024 .f32) (A0 A1 : FVec F S1024x1024 .f32) (W0 W1 W2 W3 W4 : FVec F S34x32 .f32)
    (b : FVec F S32x1 .f32) : FVec F S32x1024 .f32 :=
  addf (addf (addf (addf (addf (projC W0 X) (projC W1 (hopT X A0))) (projC W2 (hopT (hopT X A0) A0)))
    (projC W3 (hopT X A1))) (projC W4 (hopT (hopT X A1) A1))) (broadcastTo S32x1024 b broadcasts_S32x1_S32x1024)

/-- Both gates of one batch: the logistic function of the first graph convolution. -/
def gatesT (x : FVec F S2x1024 .f32) (s : FVec F S32x1024 .f32) (A0 A1 : FVec F S1024x1024 .f32)
    (W0 W1 W2 W3 W4 : FVec F S34x64 .f32) (b : FVec F S64x1 .f32) : FVec F S64x1024 .f32 :=
  logistic (convRuT (catT x s) A0 A1 W0 W1 W2 W3 W4 b)

/-- The new state of one batch, `z * s + (1 - z) * tanh (conv [x; r * s])`. -/
def cellT (x : FVec F S2x1024 .f32) (s : FVec F S32x1024 .f32) (A0 A1 : FVec F S1024x1024 .f32)
    (W0 W1 W2 W3 W4 : FVec F S34x64 .f32) (b : FVec F S64x1 .f32) (V0 V1 V2 V3 V4 : FVec F S34x32 .f32)
    (bc : FVec F S32x1 .f32) : FVec F S32x1024 .f32 :=
  addf (mulf (extractStridedSlice S32x1024 ![32, 0] (gatesT x s A0 A1 W0 W1 W2 W3 W4 b) slices_S64x1024_o32_0_S32x1024) s)
    (mulf (subf (broadcast S32x1024 (Scalar.ofBits .f32 0x3F800000#32))
        (extractStridedSlice S32x1024 ![32, 0] (gatesT x s A0 A1 W0 W1 W2 W3 W4 b) slices_S64x1024_o32_0_S32x1024))
      (tanh (convCT (catT x (mulf (extractStridedSlice S32x1024 ![0, 0] (gatesT x s A0 A1 W0 W1 W2 W3 W4 b) slices_S64x1024_o0_0_S32x1024) s))
        A0 A1 V0 V1 V2 V3 V4 bc)))

/-! ## Read at an index -/

/-- The kernel's diffusion step is the cell's, the factors of each product exchanged. -/
theorem hopT_spec (X : FVec Ideal S34x1024 .f32) (A : FVec Ideal S1024x1024 .f32) (XF : Fin 1024 → Fin 34 → EReal)
    (AF : Fin 1024 → Fin 1024 → EReal) (hX : ∀ c m, X (ix2 c m) = XF m c) (hA : ∀ n m, A (ix2 n m) = AF n m)
    (c : Fin 34) (n : Fin 1024) : hopT X A (ix2 c n) = hop AF XF n c := by
  rw [hopT_apply]
  unfold hop
  refine Finset.sum_congr rfl fun m _ => ?_
  rw [hX, hA, mul_comm]

/-- A projection to the gate channels is one stretch of the linear layer's sum. -/
theorem projRu_spec (W : FVec Ideal S34x64 .f32) (X : FVec Ideal S34x1024 .f32) (XF : Fin 1024 → Fin 34 → EReal)
    (WF : Fin 170 → Fin 64 → EReal) (k : Fin 5) (hW : ∀ c o, W (ix2 c o) = WF (wrow k c) o) (hX : ∀ c n, X (ix2 c n) = XF n c)
    (o : Fin 64) (n : Fin 1024) : projRu W X (ix2 o n) = ∑ c : Fin 34, XF n c * WF (wrow k c) o := by
  rw [projRu_apply]
  refine Finset.sum_congr rfl fun c _ => ?_
  rw [hW, hX, mul_comm]

theorem projC_spec (W : FVec Ideal S34x32 .f32) (X : FVec Ideal S34x1024 .f32) (XF : Fin 1024 → Fin 34 → EReal)
    (WF : Fin 170 → Fin 32 → EReal) (k : Fin 5) (hW : ∀ c o, W (ix2 c o) = WF (wrow k c) o) (hX : ∀ c n, X (ix2 c n) = XF n c)
    (o : Fin 32) (n : Fin 1024) : projC W X (ix2 o n) = ∑ c : Fin 34, XF n c * WF (wrow k c) o := by
  rw [projC_apply]
  refine Finset.sum_congr rfl fun c _ => ?_
  rw [hW, hX, mul_comm]

/-- The stacked block is the cell's joined signal. -/
theorem catT_spec (x : FVec Ideal S2x1024 .f32) (s : FVec Ideal S32x1024 .f32) (u : Fin 1024 → Fin 2 → EReal)
    (v : Fin 1024 → Fin 32 → EReal) (hx : ∀ c n, x (ix2 c n) = u n c) (hs : ∀ h n, s (ix2 h n) = v n h)
    (c : Fin 34) (n : Fin 1024) : catT x s (ix2 c n) = cat u v n c := by
  unfold catT cat
  by_cases h : c.val < 2
  · rw [dif_pos h, catT_apply_lo x s c n h, hx]
  · rw [dif_neg h, catT_apply_hi x s c n h, hs]

/-- A bias column broadcast along the lanes reads the column's entry of the row. -/
theorem biasRu_apply {α : Type} (b : S64x1.Idx → α) (o : Fin 64) (n : Fin 1024) :
    broadcastTo S64x1024 b broadcasts_S64x1_S64x1024 (ix2 o n) = b (ix2 o 0) :=
  broadcastTo_apply b broadcasts_S64x1_S64x1024 (ix2 o n) (ix2 o 0) (fun a => match a with | ⟨0, _⟩ => rfl | ⟨1, _⟩ => rfl)

theorem biasC_apply {α : Type} (b : S32x1.Idx → α) (o : Fin 32) (n : Fin 1024) :
    broadcastTo S32x1024 b broadcasts_S32x1_S32x1024 (ix2 o n) = b (ix2 o 0) :=
  broadcastTo_apply b broadcasts_S32x1_S32x1024 (ix2 o n) (ix2 o 0) (fun a => match a with | ⟨0, _⟩ => rfl | ⟨1, _⟩ => rfl)

theorem convRuT_spec (X : FVec Ideal S34x1024 .f32) (A0 A1 : FVec Ideal S1024x1024 .f32) (W0 W1 W2 W3 W4 : FVec Ideal S34x64 .f32)
    (b : FVec Ideal S64x1 .f32) (XF : Fin 1024 → Fin 34 → EReal) (A0F A1F : Fin 1024 → Fin 1024 → EReal)
    (WF : Fin 170 → Fin 64 → EReal) (bF : Fin 64 → EReal)
    (hX : ∀ c n, X (ix2 c n) = XF n c) (hA0 : ∀ n m, A0 (ix2 n m) = A0F n m) (hA1 : ∀ n m, A1 (ix2 n m) = A1F n m)
    (hW0 : ∀ c o, W0 (ix2 c o) = WF (wrow 0 c) o) (hW1 : ∀ c o, W1 (ix2 c o) = WF (wrow 1 c) o)
    (hW2 : ∀ c o, W2 (ix2 c o) = WF (wrow 2 c) o) (hW3 : ∀ c o, W3 (ix2 c o) = WF (wrow 3 c) o)
    (hW4 : ∀ c o, W4 (ix2 c o) = WF (wrow 4 c) o) (hb : ∀ o, b (ix2 o 0) = bF o) (o : Fin 64) (n : Fin 1024) :
    convRuT X A0 A1 W0 W1 W2 W3 W4 b (ix2 o n) = gconv A0F A1F XF WF bF n o := by
  have h1 := hopT_spec X A0 XF A0F hX hA0
  have h2 := hopT_spec (hopT X A0) A0 (hop A0F XF) A0F h1 hA0
  have h3 := hopT_spec X A1 XF A1F hX hA1
  have h4 := hopT_spec (hopT X A1) A1 (hop A1F XF) A1F h3 hA1
  unfold convRuT gconv lin
  simp only [addf_apply]
  rw [projRu_spec W0 X XF WF 0 hW0 hX, projRu_spec W1 _ _ WF 1 hW1 h1, projRu_spec W2 _ _ WF 2 hW2 h2,
    projRu_spec W3 _ _ WF 3 hW3 h3, projRu_spec W4 _ _ WF 4 hW4 h4, biasRu_apply, hb]

theorem convCT_spec (X : FVec Ideal S34x1024 .f32) (A0 A1 : FVec Ideal S1024x1024 .f32) (W0 W1 W2 W3 W4 : FVec Ideal S34x32 .f32)
    (b : FVec Ideal S32x1 .f32) (XF : Fin 1024 → Fin 34 → EReal) (A0F A1F : Fin 1024 → Fin 1024 → EReal)
    (WF : Fin 170 → Fin 32 → EReal) (bF : Fin 32 → EReal)
    (hX : ∀ c n, X (ix2 c n) = XF n c) (hA0 : ∀ n m, A0 (ix2 n m) = A0F n m) (hA1 : ∀ n m, A1 (ix2 n m) = A1F n m)
    (hW0 : ∀ c o, W0 (ix2 c o) = WF (wrow 0 c) o) (hW1 : ∀ c o, W1 (ix2 c o) = WF (wrow 1 c) o)
    (hW2 : ∀ c o, W2 (ix2 c o) = WF (wrow 2 c) o) (hW3 : ∀ c o, W3 (ix2 c o) = WF (wrow 3 c) o)
    (hW4 : ∀ c o, W4 (ix2 c o) = WF (wrow 4 c) o) (hb : ∀ o, b (ix2 o 0) = bF o) (o : Fin 32) (n : Fin 1024) :
    convCT X A0 A1 W0 W1 W2 W3 W4 b (ix2 o n) = gconv A0F A1F XF WF bF n o := by
  have h1 := hopT_spec X A0 XF A0F hX hA0
  have h2 := hopT_spec (hopT X A0) A0 (hop A0F XF) A0F h1 hA0
  have h3 := hopT_spec X A1 XF A1F hX hA1
  have h4 := hopT_spec (hopT X A1) A1 (hop A1F XF) A1F h3 hA1
  unfold convCT gconv lin
  simp only [addf_apply]
  rw [projC_spec W0 X XF WF 0 hW0 hX, projC_spec W1 _ _ WF 1 hW1 h1, projC_spec W2 _ _ WF 2 hW2 h2,
    projC_spec W3 _ _ WF 3 hW3 h3, projC_spec W4 _ _ WF 4 hW4 h4, biasC_apply, hb]

section
variable (x : FVec Ideal S2x1024 .f32) (s : FVec Ideal S32x1024 .f32) (A0 A1 : FVec Ideal S1024x1024 .f32)
  (W0 W1 W2 W3 W4 : FVec Ideal S34x64 .f32) (b : FVec Ideal S64x1 .f32) (V0 V1 V2 V3 V4 : FVec Ideal S34x32 .f32)
  (bc : FVec Ideal S32x1 .f32)
  (u : Fin 1024 → Fin 2 → EReal) (sF : Fin 1024 → Fin 32 → EReal) (A0F A1F : Fin 1024 → Fin 1024 → EReal)
  (Wru : Fin 170 → Fin 64 → EReal) (bru : Fin 64 → EReal) (Wc : Fin 170 → Fin 32 → EReal) (bcF : Fin 32 → EReal)
  (hx : ∀ c n, x (ix2 c n) = u n c) (hs : ∀ h n, s (ix2 h n) = sF n h)
  (hA0 : ∀ n m, A0 (ix2 n m) = A0F n m) (hA1 : ∀ n m, A1 (ix2 n m) = A1F n m)
  (hW0 : ∀ c o, W0 (ix2 c o) = Wru (wrow 0 c) o) (hW1 : ∀ c o, W1 (ix2 c o) = Wru (wrow 1 c) o)
  (hW2 : ∀ c o, W2 (ix2 c o) = Wru (wrow 2 c) o) (hW3 : ∀ c o, W3 (ix2 c o) = Wru (wrow 3 c) o)
  (hW4 : ∀ c o, W4 (ix2 c o) = Wru (wrow 4 c) o) (hb : ∀ o, b (ix2 o 0) = bru o)
  (hV0 : ∀ c o, V0 (ix2 c o) = Wc (wrow 0 c) o) (hV1 : ∀ c o, V1 (ix2 c o) = Wc (wrow 1 c) o)
  (hV2 : ∀ c o, V2 (ix2 c o) = Wc (wrow 2 c) o) (hV3 : ∀ c o, V3 (ix2 c o) = Wc (wrow 3 c) o)
  (hV4 : ∀ c o, V4 (ix2 c o) = Wc (wrow 4 c) o) (hbc : ∀ o, bc (ix2 o 0) = bcF o)

include hx hs hA0 hA1 hW0 hW1 hW2 hW3 hW4 hb in
theorem gatesT_spec (o : Fin 64) (n : Fin 1024) :
    gatesT x s A0 A1 W0 W1 W2 W3 W4 b (ix2 o n) = gates u sF A0F A1F Wru bru n o := by
  unfold gatesT gates
  show Ideal.logistic (convRuT (catT x s) A0 A1 W0 W1 W2 W3 W4 b (ix2 o n)) = _
  rw [convRuT_spec (catT x s) A0 A1 W0 W1 W2 W3 W4 b (cat u sF) A0F A1F Wru bru (catT_spec x s u sF hx hs) hA0 hA1 hW0 hW1 hW2 hW3 hW4 hb]

include hx hs hA0 hA1 hW0 hW1 hW2 hW3 hW4 hb in
theorem rT_spec (h : Fin 32) (n : Fin 1024) :
    extractStridedSlice S32x1024 ![0, 0] (gatesT x s A0 A1 W0 W1 W2 W3 W4 b) slices_S64x1024_o0_0_S32x1024 (ix2 h n)
      = rgate u sF A0F A1F Wru bru n h := by
  rw [extractStridedSlice_apply ![0, 0] _ slices_S64x1024_o0_0_S32x1024 (ix2 h n) (ix2 ⟨h.val, by have := h.isLt; omega⟩ n)
    (fun a => match a with | ⟨0, _⟩ => by show h.val = 0 + h.val; omega | ⟨1, _⟩ => by show n.val = 0 + n.val; omega)]
  exact gatesT_spec x s A0 A1 W0 W1 W2 W3 W4 b u sF A0F A1F Wru bru hx hs hA0 hA1 hW0 hW1 hW2 hW3 hW4 hb _ n

include hx hs hA0 hA1 hW0 hW1 hW2 hW3 hW4 hb in
theorem zT_spec (h : Fin 32) (n : Fin 1024) :
    extractStridedSlice S32x1024 ![32, 0] (gatesT x s A0 A1 W0 W1 W2 W3 W4 b) slices_S64x1024_o32_0_S32x1024 (ix2 h n)
      = ugate u sF A0F A1F Wru bru n h := by
  rw [extractStridedSlice_apply ![32, 0] _ slices_S64x1024_o32_0_S32x1024 (ix2 h n) (ix2 ⟨32 + h.val, by have := h.isLt; omega⟩ n)
    (fun a => match a with | ⟨0, _⟩ => by show 32 + h.val = 32 + h.val; rfl | ⟨1, _⟩ => by show n.val = 0 + n.val; omega)]
  exact gatesT_spec x s A0 A1 W0 W1 W2 W3 W4 b u sF A0F A1F Wru bru hx hs hA0 hA1 hW0 hW1 hW2 hW3 hW4 hb _ n

include hx hs hA0 hA1 hW0 hW1 hW2 hW3 hW4 hb hV0 hV1 hV2 hV3 hV4 hbc in
/-- One batch of the kernel at (channel h, node n) is the cell at (n, h). -/
theorem cellT_spec (h : Fin 32) (n : Fin 1024) :
    cellT x s A0 A1 W0 W1 W2 W3 W4 b V0 V1 V2 V3 V4 bc (ix2 h n) = cell u sF A0F A1F Wru bru Wc bcF n h := by
  have hz := zT_spec x s A0 A1 W0 W1 W2 W3 W4 b u sF A0F A1F Wru bru hx hs hA0 hA1 hW0 hW1 hW2 hW3 hW4 hb
  have hr := rT_spec x s A0 A1 W0 W1 W2 W3 W4 b u sF A0F A1F Wru bru hx hs hA0 hA1 hW0 hW1 hW2 hW3 hW4 hb
  have hrs : ∀ h' n', mulf (extractStridedSlice S32x1024 ![0, 0] (gatesT x s A0 A1 W0 W1 W2 W3 W4 b) slices_S64x1024_o0_0_S32x1024) s (ix2 h' n')
      = (fun n'' h'' => rgate u sF A0F A1F Wru bru n'' h'' * sF n'' h'') n' h' := fun h' n' => by
    rw [mulf_apply, hr, hs]
  unfold cellT cell cand
  rw [addf_apply, mulf_apply, mulf_apply, subf_apply, hz, hs]
  show _ + (Ideal.ofBits .f32 0x3F800000#32 - _) * Ideal.tanh (convCT _ A0 A1 V0 V1 V2 V3 V4 bc (ix2 h n)) = _
  rw [convCT_spec _ A0 A1 V0 V1 V2 V3 V4 bc _ A0F A1F Wc bcF (catT_spec x _ u _ hx hrs) hA0 hA1 hV0 hV1 hV2 hV3 hV4 hbc]

end

end Cert.KernelIdeal.Cell

end
-- ==== Proof.KernelBlock.lean ====
/-
  What one grid point of the kernel leaves in its output block: the body stores two batches, each the vector
  expression `cellT` of the batch's slices of the loaded blocks, and the block read at (batch, channel, node) is the
  cell of Spec.lean of that batch's data at (node, channel).
-/
import proofs.«102497_j3676492005530_2_alg».proof.Proof.KernelCell
import proofs.«102497_j3676492005530_2_alg».proof.Proof.Gen.KernelIdeal.Frame
import Idealize.ShloMosaic.Lib.ValueLayout

noncomputable section

namespace Cert.KernelIdeal.Cell

open Cert.KernelIdeal Cert.KernelIdeal.Gen Idealize.ShloMosaic Idealize.ShloMosaic.ValueIdx Cert.Dcgru

variable {F : FTy → Type} [FloatOps F]

/-- The first batch of a grid point: the body's vector expression of the first slices of the loaded blocks. -/
def cell0 (x0 : Vec F S2x2x1024 .f32) (x1 : Vec F S2x2x1024x1024 .f32) (x2 : Vec F S2x32x1024 .f32) (x3 : Vec F S5x34x64 .f32)
    (x4 : Vec F S64x1 .f32) (x5 : Vec F S5x34x32 .f32) (x6 : Vec F S32x1 .f32) : FVec F S32x1024 .f32 :=
  cellT (shapeCast S2x1024 (View.ld x0 r0_2) shapeCasts_S1x2x1024_S2x1024) (shapeCast S32x1024 (View.ld x2 r0_3) shapeCasts_S1x32x1024_S32x1024)
    (shapeCast S1024x1024 (View.ld x1 r0_5) shapeCasts_S1x1x1024x1024_S1024x1024) (shapeCast S1024x1024 (View.ld x1 r0_8) shapeCasts_S1x1x1024x1024_S1024x1024)
    (shapeCast S34x64 (View.ld x3 r0_4) shapeCasts_S1x34x64_S34x64) (shapeCast S34x64 (View.ld x3 r0_6) shapeCasts_S1x34x64_S34x64)
    (shapeCast S34x64 (View.ld x3 r0_7) shapeCasts_S1x34x64_S34x64) (shapeCast S34x64 (View.ld x3 r0_9) shapeCasts_S1x34x64_S34x64)
    (shapeCast S34x64 (View.ld x3 r0_10) shapeCasts_S1x34x64_S34x64) (shapeCast S64x1 (View.ld x4 r0_0) shapeCasts_S64x1_S64x1)
    (shapeCast S34x32 (View.ld x5 r0_11) shapeCasts_S1x34x32_S34x32) (shapeCast S34x32 (View.ld x5 r0_12) shapeCasts_S1x34x32_S34x32)
    (shapeCast S34x32 (View.ld x5 r0_13) shapeCasts_S1x34x32_S34x32) (shapeCast S34x32 (View.ld x5 r0_14) shapeCasts_S1x34x32_S34x32)
    (shapeCast S34x32 (View.ld x5 r0_15) shapeCasts_S1x34x32_S34x32) (shapeCast S32x1 (View.ld x6 r0_1) shapeCasts_S32x1_S32x1)

/-- The second batch of a grid point. -/
def cell1 (x0 : Vec F S2x2x1024 .f32) (x1 : Vec F S2x2x1024x1024 .f32) (x2 : Vec F S2x32x1024 .f32) (x3 : Vec F S5x34x64 .f32)
    (x4 : Vec F S64x1 .f32) (x5 : Vec F S5x34x32 .f32) (x6 : Vec F S32x1 .f32) : FVec F S32x1024 .f32 :=
  cellT (shapeCast S2x1024 (View.ld x0 r0_16) shapeCasts_S1x2x1024_S2x1024) (shapeCast S32x1024 (View.ld x2 r0_17) shapeCasts_S1x32x1024_S32x1024)
    (shapeCast S1024x1024 (View.ld x1 r0_18) shapeCasts_S1x1x1024x1024_S1024x1024) (shapeCast S1024x1024 (View.ld x1 r0_19) shapeCasts_S1x1x1024x1024_S1024x1024)
    (shapeCast S34x64 (View.ld x3 r0_4) shapeCasts_S1x34x64_S34x64) (shapeCast S34x64 (View.ld x3 r0_6) shapeCasts_S1x34x64_S34x64)
    (shapeCast S34x64 (View.ld x3 r0_7) shapeCasts_S1x34x64_S34x64) (shapeCast S34x64 (View.ld x3 r0_9) shapeCasts_S1x34x64_S34x64)
    (shapeCast S34x64 (View.ld x3 r0_10) shapeCasts_S1x34x64_S34x64) (shapeCast S64x1 (View.ld x4 r0_0) shapeCasts_S64x1_S64x1)
    (shapeCast S34x32 (View.ld x5 r0_11) shapeCasts_S1x34x32_S34x32) (shapeCast S34x32 (View.ld x5 r0_12) shapeCasts_S1x34x32_S34x32)
    (shapeCast S34x32 (View.ld x5 r0_13) shapeCasts_S1x34x32_S34x32) (shapeCast S34x32 (View.ld x5 r0_14) shapeCasts_S1x34x32_S34x32)
    (shapeCast S34x32 (View.ld x5 r0_15) shapeCasts_S1x34x32_S34x32) (shapeCast S32x1 (View.ld x6 r0_1) shapeCasts_S32x1_S32x1)

/-- The output block after the body: its two stores are the two batches' expressions, each with a unit axis added. -/
theorem out0_7_eq (x0 : Vec F S2x2x1024 .f32) (x1 : Vec F S2x2x1024x1024 .f32) (x2 : Vec F S2x32x1024 .f32) (x3 : Vec F S5x34x64 .f32)
    (x4 : Vec F S64x1 .f32) (x5 : Vec F S5x34x32 .f32) (x6 : Vec F S32x1 .f32) :
    out0_7 x0 x1 x2 x3 x4 x5 x6
      = View.canon [⟨r0_17, shapeCast S1x32x1024 (cell1 x0 x1 x2 x3 x4 x5 x6) shapeCasts_S32x1024_S1x32x1024⟩,
          ⟨r0_3, shapeCast S1x32x1024 (cell0 x0 x1 x2 x3 x4 x5 x6) shapeCasts_S32x1024_S1x32x1024⟩] := rfl

/-! ## The loaded slices read at an index -/

section Loads
variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

theorem ldx_0 (x0 : Vec F S2x2x1024 .f32) (c : Fin 2) (n : Fin 1024) :
    shapeCast S2x1024 (View.ld x0 r0_2) shapeCasts_S1x2x1024_S2x1024 (ix2 c n) = x0 (ix3 0 c n) :=
  (shapeCast_1ab_ab_apply (a := 2) (b := 1024) (View.ld x0 r0_2) shapeCasts_S1x2x1024_S2x1024 c n).trans
    (congrArg x0 (funext fun a => Fin.ext (match a with
      | ⟨0, _⟩ => rfl
      | ⟨1, _⟩ => by show 0 + 1 * c.val = c.val; omega
      | ⟨2, _⟩ => by show 0 + 1 * n.val = n.val; omega)))

theorem ldx_1 (x0 : Vec F S2x2x1024 .f32) (c : Fin 2) (n : Fin 1024) :
    shapeCast S2x1024 (View.ld x0 r0_16) shapeCasts_S1x2x1024_S2x1024 (ix2 c n) = x0 (ix3 1 c n) :=
  (shapeCast_1ab_ab_apply (a := 2) (b := 1024) (View.ld x0 r0_16) shapeCasts_S1x2x1024_S2x1024 c n).trans
    (congrArg x0 (funext fun a => Fin.ext (match a with
      | ⟨0, _⟩ => rfl
      | ⟨1, _⟩ => by show 0 + 1 * c.val = c.val; omega
      | ⟨2, _⟩ => by show 0 + 1 * n.val = n.val; omega)))

theorem lds_0 (x2 : Vec F S2x32x1024 .f32) (h : Fin 32) (n : Fin 1024) :
    shapeCast S32x1024 (View.ld x2 r0_3) shapeCasts_S1x32x1024_S32x1024 (ix2 h n) = x2 (ix3 0 h n) :=
  (shapeCast_1ab_ab_apply (a := 32) (b := 1024) (View.ld x2 r0_3) shapeCasts_S1x32x1024_S32x1024 h n).trans
    (congrArg x2 (funext fun a => Fin.ext (match a with
      | ⟨0, _⟩ => rfl
      | ⟨1, _⟩ => by show 0 + 1 * h.val = h.val; omega
      | ⟨2, _⟩ => by show 0 + 1 * n.val = n.val; omega)))

theorem lds_1 (x2 : Vec F S2x32x1024 .f32) (h : Fin 32) (n : Fin 1024) :
    shapeCast S32x1024 (View.ld x2 r0_17) shapeCasts_S1x32x1024_S32x1024 (ix2 h n) = x2 (ix3 1 h n) :=
  (shapeCast_1ab_ab_apply (a := 32) (b := 1024) (View.ld x2 r0_17) shapeCasts_S1x32x1024_S32x1024 h n).trans
    (congrArg x2 (funext fun a => Fin.ext (match a with
      | ⟨0, _⟩ => rfl
      | ⟨1, _⟩ => by show 0 + 1 * h.val = h.val; omega
      | ⟨2, _⟩ => by show 0 + 1 * n.val = n.val; omega)))

theorem ldA_00 (x1 : Vec F S2x2x1024x1024 .f32) (n m : Fin 1024) :
    shapeCast S1024x1024 (View.ld x1 r0_5) shapeCasts_S1x1x1024x1024_S1024x1024 (ix2 n m) = x1 (ix4 0 0 n m) :=
  (shapeCast_11ab_ab_apply (a := 1024) (b := 1024) (View.ld x1 r0_5) shapeCasts_S1x1x1024x1024_S1024x1024 n m).trans
    (congrArg x1 (funext fun a => Fin.ext (match a with
      | ⟨0, _⟩ => rfl
      | ⟨1, _⟩ => rfl
      | ⟨2, _⟩ => by show 0 + 1 * n.val = n.val; omega
      | ⟨3, _⟩ => by show 0 + 1 * m.val = m.val; omega)))

theorem ldA_01 (x1 : Vec F S2x2x1024x1024 .f32) (n m : Fin 1024) :
    shapeCast S1024x1024 (View.ld x1 r0_8) shapeCasts_S1x1x1024x1024_S1024x1024 (ix2 n m) = x1 (ix4 0 1 n m) :=
  (shapeCast_11ab_ab_apply (a := 1024) (b := 1024) (View.ld x1 r0_8) shapeCasts_S1x1x1024x1024_S1024x1024 n m).trans
    (congrArg x1 (funext fun a => Fin.ext (match a with
      | ⟨0, _⟩ => rfl
      | ⟨1, _⟩ => rfl
      | ⟨2, _⟩ => by show 0 + 1 * n.val = n.val; omega
      | ⟨3, _⟩ => by show 0 + 1 * m.val = m.val; omega)))

theorem ldA_10 (x1 : Vec F S2x2x1024x1024 .f32) (n m : Fin 1024) :
    shapeCast S1024x1024 (View.ld x1 r0_18) shapeCasts_S1x1x1024x1024_S1024x1024 (ix2 n m) = x1 (ix4 1 0 n m) :=
  (shapeCast_11ab_ab_apply (a := 1024) (b := 1024) (View.ld x1 r0_18) shapeCasts_S1x1x1024x1024_S1024x1024 n m).trans
    (congrArg x1 (funext fun a => Fin.ext (match a with
      | ⟨0, _⟩ => rfl
      | ⟨1, _⟩ => rfl
      | ⟨2, _⟩ => by show 0 + 1 * n.val = n.val; omega
      | ⟨3, _⟩ => by show 0 + 1 * m.val = m.val; omega)))

theorem ldA_11 (x1 : Vec F S2x2x1024x1024 .f32) (n m : Fin 1024) :
    shapeCast S1024x1024 (View.ld x1 r0_19) shapeCasts_S1x1x1024x1024_S1024x1024 (ix2 n m) = x1 (ix4 1 1 n m) :=
  (shapeCast_11ab_ab_apply (a := 1024) (b := 1024) (View.ld x1 r0_19) shapeCasts_S1x1x1024x1024_S1024x1024 n m).trans
    (congrArg x1 (funext fun a => Fin.ext (match a with
      | ⟨0, _⟩ => rfl
      | ⟨1, _⟩ => rfl
      | ⟨2, _⟩ => by show 0 + 1 * n.val = n.val; omega
      | ⟨3, _⟩ => by show 0 + 1 * m.val = m.val; omega)))

theorem ldW_0 (x3 : Vec F S5x34x64 .f32) (c : Fin 34) (o : Fin 64) :
    shapeCast S34x64 (View.ld x3 r0_4) shapeCasts_S1x34x64_S34x64 (ix2 c o) = x3 (ix3 0 c o) :=
  (shapeCast_1ab_ab_apply (a := 34) (b := 64) (View.ld x3 r0_4) shapeCasts_S1x34x64_S34x64 c o).trans
    (congrArg x3 (funext fun a => Fin.ext (match a with
      | ⟨0, _⟩ => rfl
      | ⟨1, _⟩ => by show 0 + 1 * c.val = c.val; omega
      | ⟨2, _⟩ => by show 0 + 1 * o.val = o.val; omega)))

theorem ldW_1 (x3 : Vec F S5x34x64 .f32) (c : Fin 34) (o : Fin 64) :
    shapeCast S34x64 (View.ld x3 r0_6) shapeCasts_S1x34x64_S34x64 (ix2 c o) = x3 (ix3 1 c o) :=
  (shapeCast_1ab_ab_apply (a := 34) (b := 64) (View.ld x3 r0_6) shapeCasts_S1x34x64_S34x64 c o).trans
    (congrArg x3 (funext fun a => Fin.ext (match a with
      | ⟨0, _⟩ => rfl
      | ⟨1, _⟩ => by show 0 + 1 * c.val = c.val; omega
      | ⟨2, _⟩ => by show 0 + 1 * o.val = o.val; omega)))

theorem ldW_2 (x3 : Vec F S5x34x64 .f32) (c : Fin 34) (o : Fin 64) :
    shapeCast S34x64 (View.ld x3 r0_7) shapeCasts_S1x34x64_S34x64 (ix2 c o) = x3 (ix3 2 c o) :=
  (shapeCast_1ab_ab_apply (a := 34) (b := 64) (View.ld x3 r0_7) shapeCasts_S1x34x64_S34x64 c o).trans
    (congrArg x3 (funext fun a => Fin.ext (match a with
      | ⟨0, _⟩ => rfl
      | ⟨1, _⟩ => by show 0 + 1 * c.val = c.val; omega
      | ⟨2, _⟩ => by show 0 + 1 * o.val = o.val; omega)))

theorem ldW_3 (x3 : Vec F S5x34x64 .f32) (c : Fin 34) (o : Fin 64) :
    shapeCast S34x64 (View.ld x3 r0_9) shapeCasts_S1x34x64_S34x64 (ix2 c o) = x3 (ix3 3 c o) :=
  (shapeCast_1ab_ab_apply (a := 34) (b := 64) (View.ld x3 r0_9) shapeCasts_S1x34x64_S34x64 c o).trans
    (congrArg x3 (funext fun a => Fin.ext (match a with
      | ⟨0, _⟩ => rfl
      | ⟨1, _⟩ => by show 0 + 1 * c.val = c.val; omega
      | ⟨2, _⟩ => by show 0 + 1 * o.val = o.val; omega)))

theorem ldW_4 (x3 : Vec F S5x34x64 .f32) (c : Fin 34) (o : Fin 64) :
    shapeCast S34x64 (View.ld x3 r0_10) shapeCasts_S1x34x64_S34x64 (ix2 c o) = x3 (ix3 4 c o) :=
  (shapeCast_1ab_ab_apply (a := 34) (b := 64) (View.ld x3 r0_10) shapeCasts_S1x34x64_S34x64 c o).trans
    (congrArg x3 (funext fun a => Fin.ext (match a with
      | ⟨0, _⟩ => rfl
      | ⟨1, _⟩ => by show 0 + 1 * c.val = c.val; omega
      | ⟨2, _⟩ => by show 0 + 1 * o.val = o.val; omega)))

theorem ldV_0 (x5 : Vec F S5x34x32 .f32) (c : Fin 34) (o : Fin 32) :
    shapeCast S34x32 (View.ld x5 r0_11) shapeCasts_S1x34x32_S34x32 (ix2 c o) = x5 (ix3 0 c o) :=
  (shapeCast_1ab_ab_apply (a := 34) (b := 32) (View.ld x5 r0_11) shapeCasts_S1x34x32_S34x32 c o).trans
    (congrArg x5 (funext fun a => Fin.ext (match a with
      | ⟨0, _⟩ => rfl
      | ⟨1, _⟩ => by show 0 + 1 * c.val = c.val; omega
      | ⟨2, _⟩ => by show 0 + 1 * o.val = o.val; omega)))

theorem ldV_1 (x5 : Vec F S5x34x32 .f32) (c : Fin 34) (o : Fin 32) :
    shapeCast S34x32 (View.ld x5 r0_12) shapeCasts_S1x34x32_S34x32 (ix2 c o) = x5 (ix3 1 c o) :=
  (shapeCast_1ab_ab_apply (a := 34) (b := 32) (View.ld x5 r0_12) shapeCasts_S1x34x32_S34x32 c o).trans
    (congrArg x5 (funext fun a => Fin.ext (match a with
      | ⟨0, _⟩ => rfl
      | ⟨1, _⟩ => by show 0 + 1 * c.val = c.val; omega
      | ⟨2, _⟩ => by show 0 + 1 * o.val = o.val; omega)))

theorem ldV_2 (x5 : Vec F S5x34x32 .f32) (c : Fin 34) (o : Fin 32) :
    shapeCast S34x32 (View.ld x5 r0_13) shapeCasts_S1x34x32_S34x32 (ix2 c o) = x5 (ix3 2 c o) :=
  (shapeCast_1ab_ab_apply (a := 34) (b := 32) (View.ld x5 r0_13) shapeCasts_S1x34x32_S34x32 c o).trans
    (congrArg x5 (funext fun a => Fin.ext (match a with
      | ⟨0, _⟩ => rfl
      | ⟨1, _⟩ => by show 0 + 1 * c.val = c.val; omega
      | ⟨2, _⟩ => by show 0 + 1 * o.val = o.val; omega)))

theorem ldV_3 (x5 : Vec F S5x34x32 .f32) (c : Fin 34) (o : Fin 32) :
    shapeCast S34x32 (View.ld x5 r0_14) shapeCasts_S1x34x32_S34x32 (ix2 c o) = x5 (ix3 3 c o) :=
  (shapeCast_1ab_ab_apply (a := 34) (b := 32) (View.ld x5 r0_14) shapeCasts_S1x34x32_S34x32 c o).trans
    (congrArg x5 (funext fun a => Fin.ext (match a with
      | ⟨0, _⟩ => rfl
      | ⟨1, _⟩ => by show 0 + 1 * c.val = c.val; omega
      | ⟨2, _⟩ => by show 0 + 1 * o.val = o.val; omega)))

theorem ldV_4 (x5 : Vec F S5x34x32 .f32) (c : Fin 34) (o : Fin 32) :
    shapeCast S34x32 (View.ld x5 r0_15) shapeCasts_S1x34x32_S34x32 (ix2 c o) = x5 (ix3 4 c o) :=
  (shapeCast_1ab_ab_apply (a := 34) (b := 32) (View.ld x5 r0_15) shapeCasts_S1x34x32_S34x32 c o).trans
    (congrArg x5 (funext fun a => Fin.ext (match a with
      | ⟨0, _⟩ => rfl
      | ⟨1, _⟩ => by show 0 + 1 * c.val = c.val; omega
      | ⟨2, _⟩ => by show 0 + 1 * o.val = o.val; omega)))

theorem ldb (x4 : Vec F S64x1 .f32) (o : Fin 64) :
    shapeCast S64x1 (View.ld x4 r0_0) shapeCasts_S64x1_S64x1 (ix2 o 0) = x4 (ix2 o 0) :=
  (congrFun (shapeCast_self (s := S64x1) (View.ld x4 r0_0) shapeCasts_S64x1_S64x1) (ix2 o 0)).trans
    (congrArg x4 (funext fun a => Fin.ext (match a with
      | ⟨0, _⟩ => by show 0 + 1 * o.val = o.val; omega
      | ⟨1, _⟩ => rfl)))

theorem ldbc (x6 : Vec F S32x1 .f32) (o : Fin 32) :
    shapeCast S32x1 (View.ld x6 r0_1) shapeCasts_S32x1_S32x1 (ix2 o 0) = x6 (ix2 o 0) :=
  (congrFun (shapeCast_self (s := S32x1) (View.ld x6 r0_1) shapeCasts_S32x1_S32x1) (ix2 o 0)).trans
    (congrArg x6 (funext fun a => Fin.ext (match a with
      | ⟨0, _⟩ => by show 0 + 1 * o.val = o.val; omega
      | ⟨1, _⟩ => rfl)))

end Loads

/-! ## The block at an index -/

section Block
variable (x0 : Vec Ideal S2x2x1024 .f32) (x1 : Vec Ideal S2x2x1024x1024 .f32) (x2 : Vec Ideal S2x32x1024 .f32)
  (x3 : Vec Ideal S5x34x64 .f32) (x4 : Vec Ideal S64x1 .f32) (x5 : Vec Ideal S5x34x32 .f32) (x6 : Vec Ideal S32x1 .f32)
  (u : Fin 2 → Fin 1024 → Fin 2 → EReal) (s : Fin 2 → Fin 1024 → Fin 32 → EReal) (A0 A1 : Fin 2 → Fin 1024 → Fin 1024 → EReal)
  (Wru : Fin 170 → Fin 64 → EReal) (bru : Fin 64 → EReal) (Wc : Fin 170 → Fin 32 → EReal) (bc : Fin 32 → EReal)
  (h0 : ∀ bb c n, x0 (ix3 bb c n) = u bb n c) (h1a : ∀ bb n m, x1 (ix4 bb 0 n m) = A0 bb n m)
  (h1b : ∀ bb n m, x1 (ix4 bb 1 n m) = A1 bb n m) (h2 : ∀ bb h n, x2 (ix3 bb h n) = s bb n h)
  (h3 : ∀ k c o, x3 (ix3 k c o) = Wru (wrow k c) o) (h4 : ∀ o, x4 (ix2 o 0) = bru o)
  (h5 : ∀ k c o, x5 (ix3 k c o) = Wc (wrow k c) o) (h6 : ∀ o, x6 (ix2 o 0) = bc o)

include h0 h1a h1b h2 h3 h4 h5 h6 in
theorem cell0_spec (h : Fin 32) (n : Fin 1024) :
    cell0 x0 x1 x2 x3 x4 x5 x6 (ix2 h n) = cell (u 0) (s 0) (A0 0) (A1 0) Wru bru Wc bc n h := by
  unfold cell0
  exact cellT_spec _ _ _ _ _ _ _ _ _ _ _ _ _ _ _ _ (u 0) (s 0) (A0 0) (A1 0) Wru bru Wc bc
    (fun c n => (ldx_0 x0 c n).trans (h0 0 c n)) (fun h n => (lds_0 x2 h n).trans (h2 0 h n))
    (fun n m => (ldA_00 x1 n m).trans (h1a 0 n m)) (fun n m => (ldA_01 x1 n m).trans (h1b 0 n m))
    (fun c o => (ldW_0 x3 c o).trans (h3 0 c o)) (fun c o => (ldW_1 x3 c o).trans (h3 1 c o))
    (fun c o => (ldW_2 x3 c o).trans (h3 2 c o)) (fun c o => (ldW_3 x3 c o).trans (h3 3 c o))
    (fun c o => (ldW_4 x3 c o).trans (h3 4 c o)) (fun o => (ldb x4 o).trans (h4 o))
    (fun c o => (ldV_0 x5 c o).trans (h5 0 c o)) (fun c o => (ldV_1 x5 c o).trans (h5 1 c o))
    (fun c o => (ldV_2 x5 c o).trans (h5 2 c o)) (fun c o => (ldV_3 x5 c o).trans (h5 3 c o))
    (fun c o => (ldV_4 x5 c o).trans (h5 4 c o)) (fun o => (ldbc x6 o).trans (h6 o)) h n

include h0 h1a h1b h2 h3 h4 h5 h6 in
theorem cell1_spec (h : Fin 32) (n : Fin 1024) :
    cell1 x0 x1 x2 x3 x4 x5 x6 (ix2 h n) = cell (u 1) (s 1) (A0 1) (A1 1) Wru bru Wc bc n h := by
  unfold cell1
  exact cellT_spec _ _ _ _ _ _ _ _ _ _ _ _ _ _ _ _ (u 1) (s 1) (A0 1) (A1 1) Wru bru Wc bc
    (fun c n => (ldx_1 x0 c n).trans (h0 1 c n)) (fun h n => (lds_1 x2 h n).trans (h2 1 h n))
    (fun n m => (ldA_10 x1 n m).trans (h1a 1 n m)) (fun n m => (ldA_11 x1 n m).trans (h1b 1 n m))
    (fun c o => (ldW_0 x3 c o).trans (h3 0 c o)) (fun c o => (ldW_1 x3 c o).trans (h3 1 c o))
    (fun c o => (ldW_2 x3 c o).trans (h3 2 c o)) (fun c o => (ldW_3 x3 c o).trans (h3 3 c o))
    (fun c o => (ldW_4 x3 c o).trans (h3 4 c o)) (fun o => (ldb x4 o).trans (h4 o))
    (fun c o => (ldV_0 x5 c o).trans (h5 0 c o)) (fun c o => (ldV_1 x5 c o).trans (h5 1 c o))
    (fun c o => (ldV_2 x5 c o).trans (h5 2 c o)) (fun c o => (ldV_3 x5 c o).trans (h5 3 c o))
    (fun c o => (ldV_4 x5 c o).trans (h5 4 c o)) (fun o => (ldbc x6 o).trans (h6 o)) h n

/-- The block a grid point leaves, as a function of its index: at (batch, channel, node) the cell of the batch's data. -/
def blockFn (u : Fin 2 → Fin 1024 → Fin 2 → EReal) (s : Fin 2 → Fin 1024 → Fin 32 → EReal) (A0 A1 : Fin 2 → Fin 1024 → Fin 1024 → EReal)
    (Wru : Fin 170 → Fin 64 → EReal) (bru : Fin 64 → EReal) (Wc : Fin 170 → Fin 32 → EReal) (bc : Fin 32 → EReal) :
    S2x32x1024.Idx → EReal :=
  fun y => cell (u (y 0)) (s (y 0)) (A0 (y 0)) (A1 (y 0)) Wru bru Wc bc (y 2) (y 1)

include h0 h1a h1b h2 h3 h4 h5 h6 in
/-- The second store's payload is the block function under its rectangle (batch 1). -/
theorem piece1_eq (x : S1x32x1024.Idx) :
    shapeCast S1x32x1024 (cell1 x0 x1 x2 x3 x4 x5 x6) shapeCasts_S32x1024_S1x32x1024 x
      = blockFn u s A0 A1 Wru bru Wc bc ((r0_17 : Rect S2x32x1024).emb x) := by
  obtain ⟨q, h, n, rfl⟩ : ∃ (q : Fin 1) (h : Fin 32) (n : Fin 1024), x = ix3 q h n := ⟨x 0, x 1, x 2, eq_ix3 x⟩
  have hq := q.isLt
  have he : (r0_17 : Rect S2x32x1024).emb (ix3 q h n) = (ix3 (1 : Fin 2) h n : S2x32x1024.Idx) :=
    funext fun a => Fin.ext (match a with
      | ⟨0, _⟩ => by show 1 + 1 * q.val = 1; omega
      | ⟨1, _⟩ => by show 0 + 1 * h.val = h.val; omega
      | ⟨2, _⟩ => by show 0 + 1 * n.val = n.val; omega)
  rw [he]
  exact (shapeCast_ab_1ab_apply (a := 32) (b := 1024) _ shapeCasts_S32x1024_S1x32x1024 q h n).trans
    (cell1_spec x0 x1 x2 x3 x4 x5 x6 u s A0 A1 Wru bru Wc bc h0 h1a h1b h2 h3 h4 h5 h6 h n)

include h0 h1a h1b h2 h3 h4 h5 h6 in
/-- The first store's payload is the block function under its rectangle (batch 0). -/
theorem piece0_eq (x : S1x32x1024.Idx) :
    shapeCast S1x32x1024 (cell0 x0 x1 x2 x3 x4 x5 x6) shapeCasts_S32x1024_S1x32x1024 x
      = blockFn u s A0 A1 Wru bru Wc bc ((r0_3 : Rect S2x32x1024).emb x) := by
  obtain ⟨q, h, n, rfl⟩ : ∃ (q : Fin 1) (h : Fin 32) (n : Fin 1024), x = ix3 q h n := ⟨x 0, x 1, x 2, eq_ix3 x⟩
  have hq := q.isLt
  have he : (r0_3 : Rect S2x32x1024).emb (ix3 q h n) = (ix3 (0 : Fin 2) h n : S2x32x1024.Idx) :=
    funext fun a => Fin.ext (match a with
      | ⟨0, _⟩ => by show 0 + 1 * q.val = 0; omega
      | ⟨1, _⟩ => by show 0 + 1 * h.val = h.val; omega
      | ⟨2, _⟩ => by show 0 + 1 * n.val = n.val; omega)
  rw [he]
  exact (shapeCast_ab_1ab_apply (a := 32) (b := 1024) _ shapeCasts_S32x1024_S1x32x1024 q h n).trans
    (cell0_spec x0 x1 x2 x3 x4 x5 x6 u s A0 A1 Wru bru Wc bc h0 h1a h1b h2 h3 h4 h5 h6 h n)

include h0 h1a h1b h2 h3 h4 h5 h6 in
/-- The output block after the body IS the block function: its two stores are that function under their
    rectangles, and they tile the block. -/
theorem out0_7_apply (y : S2x32x1024.Idx) :
    out0_7 x0 x1 x2 x3 x4 x5 x6 y = blockFn u s A0 A1 Wru bru Wc bc y := by
  rw [out0_7_eq]
  exact View.canon_apply_of_pieces (Val := Elt Ideal) (S := S2x32x1024) (e := .f32) (blockFn u s A0 A1 Wru bru Wc bc) _
    (fun p hp => by
      rcases List.mem_cons.mp hp with rfl | hp
      · exact piece1_eq x0 x1 x2 x3 x4 x5 x6 u s A0 A1 Wru bru Wc bc h0 h1a h1b h2 h3 h4 h5 h6
      · rcases List.mem_cons.mp hp with rfl | hp
        · exact piece0_eq x0 x1 x2 x3 x4 x5 x6 u s A0 A1 Wru bru Wc bc h0 h1a h1b h2 h3 h4 h5 h6
        · exact absurd hp List.not_mem_nil)
    y (cover0_7 _ _ y)

end Block

end Cert.KernelIdeal.Cell

end
-- ==== Proof.Result.lean ====
/-
  The result both programs compute, as one function of the seven argument arrays: at (batch b, node n, channel h) the
  cell of Spec.lean of batch b's rows of the inputs and states, its two diffusion matrices, and the shared weights
  and biases. `resultArr` is the array of shape [32, 1024, 32]; `resultArrT` the same with the last two axes
  exchanged (channels before nodes), the layout the kernel's region writes before the host transposes it back.
-/
import proofs.«102497_j3676492005530_2_alg».proof.Proof.Spec
import Idealize.ShloMosaic.Lib.ValueIdx

noncomputable section

namespace Cert.Dcgru

open Idealize.ShloMosaic Idealize.ShloMosaic.ValueIdx

/-- The cell of batch `b` of the argument arrays, at node `n` and channel `h`. -/
def cellOf (a0 : (⟨3, ![32, 1024, 2]⟩ : Shape).Idx → EReal) (a1 : (⟨4, ![32, 2, 1024, 1024]⟩ : Shape).Idx → EReal)
    (a2 : (⟨3, ![32, 1024, 32]⟩ : Shape).Idx → EReal) (a3 : (⟨2, ![170, 64]⟩ : Shape).Idx → EReal) (a4 : (⟨1, ![64]⟩ : Shape).Idx → EReal)
    (a5 : (⟨2, ![170, 32]⟩ : Shape).Idx → EReal) (a6 : (⟨1, ![32]⟩ : Shape).Idx → EReal) (b : Fin 32) (n : Fin 1024) (h : Fin 32) : EReal :=
  cell (fun n c => a0 (ix3 b n c)) (fun n h => a2 (ix3 b n h)) (fun n m => a1 (ix4 b 0 n m)) (fun n m => a1 (ix4 b 1 n m))
    (fun f o => a3 (ix2 f o)) (fun o => a4 (ix1 o)) (fun f o => a5 (ix2 f o)) (fun o => a6 (ix1 o)) n h

/-- The result array, [batch, node, channel]. -/
def resultArr (a0 : (⟨3, ![32, 1024, 2]⟩ : Shape).Idx → EReal) (a1 : (⟨4, ![32, 2, 1024, 1024]⟩ : Shape).Idx → EReal)
    (a2 : (⟨3, ![32, 1024, 32]⟩ : Shape).Idx → EReal) (a3 : (⟨2, ![170, 64]⟩ : Shape).Idx → EReal) (a4 : (⟨1, ![64]⟩ : Shape).Idx → EReal)
    (a5 : (⟨2, ![170, 32]⟩ : Shape).Idx → EReal) (a6 : (⟨1, ![32]⟩ : Shape).Idx → EReal) : (⟨3, ![32, 1024, 32]⟩ : Shape).Idx → EReal :=
  fun i => cellOf a0 a1 a2 a3 a4 a5 a6 (i 0) (i 1) (i 2)

/-- The result array with channels before nodes, [batch, channel, node]. -/
def resultArrT (a0 : (⟨3, ![32, 1024, 2]⟩ : Shape).Idx → EReal) (a1 : (⟨4, ![32, 2, 1024, 1024]⟩ : Shape).Idx → EReal)
    (a2 : (⟨3, ![32, 1024, 32]⟩ : Shape).Idx → EReal) (a3 : (⟨2, ![170, 64]⟩ : Shape).Idx → EReal) (a4 : (⟨1, ![64]⟩ : Shape).Idx → EReal)
    (a5 : (⟨2, ![170, 32]⟩ : Shape).Idx → EReal) (a6 : (⟨1, ![32]⟩ : Shape).Idx → EReal) : (⟨3, ![32, 32, 1024]⟩ : Shape).Idx → EReal :=
  fun i => cellOf a0 a1 a2 a3 a4 a5 a6 (i 0) (i 2) (i 1)

end Cert.Dcgru

end
-- ==== Proof.KernelValue.lean ====
/-
  The kernel's program at the array level, over the extended reals: the region's output array ends holding the
  result with channels before nodes (every grid point writes its two batches' block of it, and the sixteen blocks
  tile the array), and the host's final transposition makes it the result array itself.

  The blocks a grid point reads are blocks of the transposed inputs and states, of the supports, and of the weights
  reshaped into five stretches of 34 rows; read at an index they are the argument arrays at batch `2 t + bb`.
-/
import proofs.«102497_j3676492005530_2_alg».proof.Proof.KernelBlock
import proofs.«102497_j3676492005530_2_alg».proof.Proof.Result

set_option maxRecDepth 16384

noncomputable section

namespace Cert.KernelIdeal.KValue

open Cert.KernelIdeal Cert.KernelIdeal.Gen Cert.KernelIdeal.Cell Cert.Dcgru
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The arrays the region finds: the host operations before it -/

theorem V_v0 (c : Dev nD) : V m c main_v0
    = transpose S32x2x1024 [0, 2, 1] (m ((c : Thread nD τ).loc main_arg0)) transposes_S32x1024x2_S32x2x1024_0_2_1 := by
  show StableHlo.after hostOps0 (fun b => m (c, b)) (Proc.devRef .tc main_v0) = _
  after_results
theorem V_v1 (c : Dev nD) : V m c main_v1
    = transpose S32x32x1024 [0, 2, 1] (m ((c : Thread nD τ).loc main_arg2)) transposes_S32x1024x32_S32x32x1024_0_2_1 := by
  show StableHlo.after hostOps0 (fun b => m (c, b)) (Proc.devRef .tc main_v1) = _
  after_results
theorem V_v2 (c : Dev nD) : V m c main_v2 = shapeCast S5x34x64 (m ((c : Thread nD τ).loc main_arg3)) shapeCasts_S170x64_S5x34x64 := by
  show StableHlo.after hostOps0 (fun b => m (c, b)) (Proc.devRef .tc main_v2) = _
  after_results
  rfl
theorem V_v3 (c : Dev nD) : V m c main_v3 = shapeCast S5x34x32 (m ((c : Thread nD τ).loc main_arg5)) shapeCasts_S170x32_S5x34x32 := by
  show StableHlo.after hostOps0 (fun b => m (c, b)) (Proc.devRef .tc main_v3) = _
  after_results
  rfl
theorem V_v4 (c : Dev nD) : V m c main_v4 = shapeCast S64x1 (m ((c : Thread nD τ).loc main_arg4)) shapeCasts_S64_S64x1 := by
  show StableHlo.after hostOps0 (fun b => m (c, b)) (Proc.devRef .tc main_v4) = _
  after_results
  rfl
theorem V_v5 (c : Dev nD) : V m c main_v5 = shapeCast S32x1 (m ((c : Thread nD τ).loc main_arg6)) shapeCasts_S32_S32x1 := by
  show StableHlo.after hostOps0 (fun b => m (c, b)) (Proc.devRef .tc main_v5) = _
  after_results
  rfl

/-! ## The printed index maps over the grid -/

/-- Windows 0, 1, 2 and 7 move with the grid point along their first axis; the weights and biases stay. -/
theorem idx_facts : ∀ t : Fin cfg0.N,
    win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

theorem t_lt (t : Fin cfg0.N) : t.val < 16 := lt_of_lt_of_eq t.isLt N_0

/-- Batch `2 t + bb` of the 32: the batch a grid point's block row `bb` holds. -/
def batchOf (t : Fin cfg0.N) (bb : Fin 2) : Fin 32 := ⟨2 * t.val + bb.val, by have := t_lt t; have := bb.isLt; omega⟩

/-! ## The input blocks at an index -/

theorem blk0_apply (c : Dev nD) (t : Fin cfg0.N) (bb : Fin 2) (ch : Fin 2) (n : Fin 1024) :
    iblk m c 0 t (ix3 bb ch n) = m ((c : Thread nD τ).loc main_arg0) (ix3 (batchOf t bb) n ch) := by
  show V m c main_v0 (((cfg0.win 0).blk t).view.emb (ix3 bb ch n)) = _
  have hi := idx_facts t
  have he : ((cfg0.win 0).blk t).view.emb (ix3 bb ch n) = (ix3 (batchOf t bb) ch n : S32x2x1024.Idx) :=
    funext fun a => Fin.ext (match a with
      | ⟨0, _⟩ => by show win0_0.index t (0 : Fin 3) * 2 + 1 * bb.val = 2 * t.val + bb.val; rw [hi.1]; omega
      | ⟨1, _⟩ => by show win0_0.index t (1 : Fin 3) * 2 + 1 * ch.val = ch.val; rw [hi.2.1]; omega
      | ⟨2, _⟩ => by show win0_0.index t (2 : Fin 3) * 1024 + 1 * n.val = n.val; rw [hi.2.2.1]; omega)
  rw [he, V_v0]
  exact transpose_ix3_021_apply _ _ _ _ _

theorem blk1_apply (c : Dev nD) (t : Fin cfg0.N) (bb : Fin 2) (sp : Fin 2) (n k : Fin 1024) :
    iblk m c 1 t (ix4 bb sp n k) = m ((c : Thread nD τ).loc main_arg1) (ix4 (batchOf t bb) sp n k) := by
  show V m c main_arg1 (((cfg0.win 1).blk t).view.emb (ix4 bb sp n k)) = _
  have hi := idx_facts t
  have he : ((cfg0.win 1).blk t).view.emb (ix4 bb sp n k) = (ix4 (batchOf t bb) sp n k : S32x2x1024x1024.Idx) :=
    funext fun a => Fin.ext (match a with
      | ⟨0, _⟩ => by show win0_1.index t (0 : Fin 4) * 2 + 1 * bb.val = 2 * t.val + bb.val; rw [hi.2.2.2.1]; omega
      | ⟨1, _⟩ => by show win0_1.index t (1 : Fin 4) * 2 + 1 * sp.val = sp.val; rw [hi.2.2.2.2.1]; omega
      | ⟨2, _⟩ => by show win0_1.index t (2 : Fin 4) * 1024 + 1 * n.val = n.val; rw [hi.2.2.2.2.2.1]; omega
      | ⟨3, _⟩ => by show win0_1.index t (3 : Fin 4) * 1024 + 1 * k.val = k.val; rw [hi.2.2.2.2.2.2.1]; omega)
  rw [he, V_main_arg1]

theorem blk2_apply (c : Dev nD) (t : Fin cfg0.N) (bb : Fin 2) (h : Fin 32) (n : Fin 1024) :
    iblk m c 2 t (ix3 bb h n) = m ((c : Thread nD τ).loc main_arg2) (ix3 (batchOf t bb) n h) := by
  show V m c main_v1 (((cfg0.win 2).blk t).view.emb (ix3 bb h n)) = _
  have hi := (idx_facts t).2.2.2.2.2.2.2
  have he : ((cfg0.win 2).blk t).view.emb (ix3 bb h n) = (ix3 (batchOf t bb) h n : S32x32x1024.Idx) :=
    funext fun a => Fin.ext (match a with
      | ⟨0, _⟩ => by show win0_2.index t (0 : Fin 3) * 2 + 1 * bb.val = 2 * t.val + bb.val; rw [hi.1]; omega
      | ⟨1, _⟩ => by show win0_2.index t (1 : Fin 3) * 32 + 1 * h.val = h.val; rw [hi.2.1]; omega
      | ⟨2, _⟩ => by show win0_2.index t (2 : Fin 3) * 1024 + 1 * n.val = n.val; rw [hi.2.2.1]; omega)
  rw [he, V_v1]
  exact transpose_ix3_021_apply _ _ _ _ _

theorem blk3_apply (c : Dev nD) (t : Fin cfg0.N) (k : Fin 5) (ch : Fin 34) (o : Fin 64) :
    iblk m c 3 t (ix3 k ch o) = m ((c : Thread nD τ).loc main_arg3) (ix2 (wrow k ch) o) := by
  show V m c main_v2 (((cfg0.win 3).blk t).view.emb (ix3 k ch o)) = _
  have hi := (idx_facts t).2.2.2.2.2.2.2.2.2.2
  have he : ((cfg0.win 3).blk t).view.emb (ix3 k ch o) = (ix3 k ch o : S5x34x64.Idx) :=
    funext fun a => Fin.ext (match a with
      | ⟨0, _⟩ => by show win0_3.index t (0 : Fin 3) * 5 + 1 * k.val = k.val; rw [hi.1]; omega
      | ⟨1, _⟩ => by show win0_3.index t (1 : Fin 3) * 34 + 1 * ch.val = ch.val; rw [hi.2.1]; omega
      | ⟨2, _⟩ => by show win0_3.index t (2 : Fin 3) * 64 + 1 * o.val = o.val; rw [hi.2.2.1]; omega)
  rw [he, V_v2]
  exact shapeCast_apply _ shapeCasts_S170x64_S5x34x64 _ _ (by
    rw [Shape.rowMajor_val_two, Shape.rowMajor_val_three]
    rfl)

theorem blk4_apply (c : Dev nD) (t : Fin cfg0.N) (o : Fin 64) :
    iblk m c 4 t (ix2 o 0) = m ((c : Thread nD τ).loc main_arg4) (ix1 o) := by
  show V m c main_v4 (((cfg0.win 4).blk t).view.emb (ix2 o 0)) = _
  have hi := (idx_facts t).2.2.2.2.2.2.2.2.2.2.2.2.2
  have he : ((cfg0.win 4).blk t).view.emb (ix2 o 0) = (ix2 o 0 : S64x1.Idx) :=
    funext fun a => Fin.ext (match a with
      | ⟨0, _⟩ => by show win0_4.index t (0 : Fin 2) * 64 + 1 * o.val = o.val; rw [hi.1]; omega
      | ⟨1, _⟩ => by show win0_4.index t (1 : Fin 2) * 1 + 1 * 0 = 0; rw [hi.2.1])
  rw [he, V_v4]
  exact shapeCast_apply _ shapeCasts_S64_S64x1 _ _ (by
    rw [Shape.rowMajor_val_one, Shape.rowMajor_val_two]
    show o.val = o.val * 1 + 0
    omega)

theorem blk5_apply (c : Dev nD) (t : Fin cfg0.N) (k : Fin 5) (ch : Fin 34) (o : Fin 32) :
    iblk m c 5 t (ix3 k ch o) = m ((c : Thread nD τ).loc main_arg5) (ix2 (wrow k ch) o) := by
  show V m c main_v3 (((cfg0.win 5).blk t).view.emb (ix3 k ch o)) = _
  have hi := (idx_facts t).2.2.2.2.2.2.2.2.2.2.2.2.2.2.2
  have he : ((cfg0.win 5).blk t).view.emb (ix3 k ch o) = (ix3 k ch o : S5x34x32.Idx) :=
    funext fun a => Fin.ext (match a with
      | ⟨0, _⟩ => by show win0_5.index t (0 : Fin 3) * 5 + 1 * k.val = k.val; rw [hi.1]; omega
      | ⟨1, _⟩ => by show win0_5.index t (1 : Fin 3) * 34 + 1 * ch.val = ch.val; rw [hi.2.1]; omega
      | ⟨2, _⟩ => by show win0_5.index t (2 : Fin 3) * 32 + 1 * o.val = o.val; rw [hi.2.2.1]; omega)
  rw [he, V_v3]
  exact shapeCast_apply _ shapeCasts_S170x32_S5x34x32 _ _ (by
    rw [Shape.rowMajor_val_two, Shape.rowMajor_val_three]
    rfl)

theorem blk6_apply (c : Dev nD) (t : Fin cfg0.N) (o : Fin 32) :
    iblk m c 6 t (ix2 o 0) = m ((c : Thread nD τ).loc main_arg6) (ix1 o) := by
  show V m c main_v5 (((cfg0.win 6).blk t).view.emb (ix2 o 0)) = _
  have hi := (idx_facts t).2.2.2.2.2.2.2.2.2.2.2.2.2.2.2.2.2.2
  have he : ((cfg0.win 6).blk t).view.emb (ix2 o 0) = (ix2 o 0 : S32x1.Idx) :=
    funext fun a => Fin.ext (match a with
      | ⟨0, _⟩ => by show win0_6.index t (0 : Fin 2) * 32 + 1 * o.val = o.val; rw [hi.1]; omega
      | ⟨1, _⟩ => by show win0_6.index t (1 : Fin 2) * 1 + 1 * 0 = 0; rw [hi.2.1])
  rw [he, V_v5]
  exact shapeCast_apply _ shapeCasts_S32_S32x1 _ _ (by
    rw [Shape.rowMajor_val_one, Shape.rowMajor_val_two]
    show o.val = o.val * 1 + 0
    omega)

/-! ## What a grid point writes back, and the output array -/

/-- WHAT POINT `t` WRITES BACK is block `t` of the result with channels before nodes. -/
theorem flushed7_eq (c : Dev nD) (t : Fin cfg0.N) :
    (dats m 0 c).flushed 7 t = ((cfg0.win 7).blk t).view.read (Elt Ideal) (resultArrT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show (cfg0.win 7).cut (grid0.coords t) ((dats m 0 c).after 7 t) = _
  rw [after0_7]
  funext j
  show out0_7 (iblk m c 0 t) (iblk m c 1 t) (iblk m c 2 t) (iblk m c 3 t) (iblk m c 4 t) (iblk m c 5 t) (iblk m c 6 t) j
    = resultArrT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb j)
  refine (out0_7_apply (iblk m c 0 t) (iblk m c 1 t) (iblk m c 2 t) (iblk m c 3 t) (iblk m c 4 t) (iblk m c 5 t) (iblk m c 6 t)
    (fun bb n ch => m ((c : Thread nD τ).loc main_arg0) (ix3 (batchOf t bb) n ch))
    (fun bb n h => m ((c : Thread nD τ).loc main_arg2) (ix3 (batchOf t bb) n h))
    (fun bb n k => m ((c : Thread nD τ).loc main_arg1) (ix4 (batchOf t bb) 0 n k))
    (fun bb n k => m ((c : Thread nD τ).loc main_arg1) (ix4 (batchOf t bb) 1 n k))
    (fun f o => m ((c : Thread nD τ).loc main_arg3) (ix2 f o)) (fun o => m ((c : Thread nD τ).loc main_arg4) (ix1 o))
    (fun f o => m ((c : Thread nD τ).loc main_arg5) (ix2 f o)) (fun o => m ((c : Thread nD τ).loc main_arg6) (ix1 o))
    (fun bb ch n => blk0_apply m c t bb ch n) (fun bb n k => blk1_apply m c t bb 0 n k) (fun bb n k => blk1_apply m c t bb 1 n k)
    (fun bb h n => blk2_apply m c t bb h n) (fun k ch o => blk3_apply m c t k ch o) (fun o => blk4_apply m c t o)
    (fun k ch o => blk5_apply m c t k ch o) (fun o => blk6_apply m c t o) j).trans ?_
  obtain ⟨bb, h, n, rfl⟩ : ∃ (bb : Fin 2) (h : Fin 32) (n : Fin 1024), j = ix3 bb h n := ⟨j 0, j 1, j 2, eq_ix3 j⟩
  have hi := (idx_facts t).2.2.2.2.2.2.2.2.2.2.2.2.2.2.2.2.2.2.2.2
  have he : ((cfg0.win 7).blk t).view.emb (ix3 bb h n) = (ix3 (batchOf t bb) h n : S32x32x1024.Idx) :=
    funext fun a => Fin.ext (match a with
      | ⟨0, _⟩ => by show win0_7.index t (0 : Fin 3) * 2 + 1 * bb.val = 2 * t.val + bb.val; rw [hi.1]; omega
      | ⟨1, _⟩ => by show win0_7.index t (1 : Fin 3) * 32 + 1 * h.val = h.val; rw [hi.2.1]; omega
      | ⟨2, _⟩ => by show win0_7.index t (2 : Fin 3) * 1024 + 1 * n.val = n.val; rw [hi.2.2]; omega)
  rw [he]
  rfl

/-- An index of the output array is in point `t`'s block iff each coordinate is in the block's range on its axis. -/
theorem mem_blk7 (t : Fin cfg0.N) (i : S32x32x1024.Idx) :
    i ∈ ((cfg0.win 7).blk t).view.set ↔ ∀ a : Fin 3, win0_7.index t a * S2x32x1024.size a ≤ (i a).val
      ∧ (i a).val < win0_7.index t a * S2x32x1024.size a + S2x32x1024.size a := by
  show i ∈ ((View.whole main_v6).slice (win0_7.rect t)).set ↔ _
  rw [View.set_slice_whole, Rect.mem_set_unit]
  exact Iff.rfl

/-- The sixteen blocks tile the array: batch `b` is in the block of point `b / 2`. -/
theorem cover7 (i : S32x32x1024.Idx) : ∃ t : Fin cfg0.N, (cfg0.win 7).flush t = true ∧ i ∈ ((cfg0.win 7).blk t).view.set := by
  have h0 : (i 0).val < 32 := (i 0).isLt
  have h1 : (i 1).val < 32 := (i 1).isLt
  have h2 : (i 2).val < 1024 := (i 2).isLt
  let t : Fin cfg0.N := ⟨(i 0).val / 2, by rw [show cfg0.N = 16 from N_0]; omega⟩
  have hi := (idx_facts t).2.2.2.2.2.2.2.2.2.2.2.2.2.2.2.2.2.2.2.2
  have ht : t.val = (i 0).val / 2 := rfl
  refine ⟨t, flush0_7 t, ?_⟩
  rw [mem_blk7]
  intro a
  match a with
  | ⟨0, _⟩ => show win0_7.index t (0 : Fin 3) * 2 ≤ (i 0).val ∧ (i 0).val < win0_7.index t (0 : Fin 3) * 2 + 2; rw [hi.1]; omega
  | ⟨1, _⟩ => show win0_7.index t (1 : Fin 3) * 32 ≤ (i 1).val ∧ (i 1).val < win0_7.index t (1 : Fin 3) * 32 + 32; rw [hi.2.1]; omega
  | ⟨2, _⟩ => show win0_7.index t (2 : Fin 3) * 1024 ≤ (i 2).val ∧ (i 2).val < win0_7.index t (2 : Fin 3) * 1024 + 1024; rw [hi.2.2]; omega

/-- THE OUTPUT ARRAY after the region: the result with channels before nodes. -/
theorem final7 (c : Dev nD) : (dats m 0 c).arrAt 7 cfg0.N = resultArrT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 _ (fun t _ => flushed7_eq m c t) cover7

/-- The host's transposition after the region makes it the result array. -/
theorem tail_v7 (c : Dev nD) :
    Pipeline.afterTail₀ cfgs (dats m) 0 (V0 m) [hostOps1] c main_v7 = resultArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 _ (Proc.devRef .tc main_v7) = _
  after_results
  rw [show Pipeline.withArrays spec0 c (V0 m c) (fun w => (dats m 0 c).arrAt w cfg0.N) (Proc.devRef .tc main_v6) = (dats m 0 c).arrAt 7 cfg0.N from
    Pipeline.withArrays_arr spec0 launch0.win.arr_inj c _ _ 7, final7]
  funext i
  obtain ⟨b, n, h, rfl⟩ : ∃ (b : Fin 32) (n : Fin 1024) (h : Fin 32), i = ix3 b n h := ⟨i 0, i 1, i 2, eq_ix3 i⟩
  exact transpose_ix3_021_apply _ _ _ _ _

/-! ## The run, read -/

/-- Every weakly fair execution of the kernel's @main terminates with the result buffer at the result array of the
    arguments' launch contents and the arguments unchanged. -/
theorem run : θ_run defs (onTc (τ := τ) (main (F := Ideal))) ⟨m, fun _ => 0, ρ⟩ (fun r => ∀ c : Dev nD,
      r.2.mem ((c.tc : Thread nD τ).loc main_v7) = resultArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v7 (Pipeline.mem_restRefs_of main_v7 (by decide) (by decide))).trans (tail_v7 m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.KValue

end
-- ==== Proof.RefCell.lean ====
/-
  The reference program read at an index over the extended reals: its result at (batch b, node n, channel h) is
  the cell of Spec.lean of batch b's data — the batch's rows of the inputs and states, its two diffusion
  matrices, and the shared weights and biases.

  The reference joins its five diffused signals along the channel axis and contracts the 170 joined channels in
  one matrix product; `Dcgru.sum_rows` splits that sum into the five stretches of 34 the cell is written with.
  Its logistic function is spelt `1 / (1 + exp (-x))` with the f32 pattern of one (`Dcgru.logistic_expanded`).
-/
import proofs.«102497_j3676492005530_2_alg».proof.Proof.ReadP
import proofs.«102497_j3676492005530_2_alg».proof.Proof.Spec

noncomputable section

namespace Cert.ReferenceIdeal.RefValue

open Cert.ReferenceIdeal Cert.ReferenceIdeal.Gen Cert.ReferenceIdeal.ReadP Idealize.ShloMosaic Idealize.ShloMosaic.ValueIdx Cert.Dcgru

/-! ## Layout steps at an index -/

/-- The channel-axis join of a 2-channel and a 32-channel array. -/
theorem join2_apply {α : Type} (a : S32x1024x2.Idx → α) (v : S32x1024x32.Idx → α) (b : Fin 32) (n : Fin 1024) (c : Fin 34) :
    concatenate S32x1024x34 2 [⟨S32x1024x2, a⟩, ⟨S32x1024x32, v⟩] concatenates_S32x1024x2_S32x1024x32_S32x1024x34_d2 (ix3 b n c)
      = if h : c.val < 2 then a (ix3 b n ⟨c.val, h⟩) else v (ix3 b n ⟨c.val - 2, by have := c.isLt; omega⟩) := by
  by_cases h : c.val < 2
  · rw [dif_pos h]
    exact concatenate_pair_apply_left (2 : Fin S32x1024x34.rank) a v concatenates_S32x1024x2_S32x1024x32_S32x1024x34_d2 (ix3 b n c) rfl
      (ix3 b n ⟨c.val, h⟩) (fun d => match d with | ⟨0, _⟩ => rfl | ⟨1, _⟩ => rfl | ⟨2, _⟩ => rfl)
  · rw [dif_neg h]
    exact concatenate_pair_apply_right (2 : Fin S32x1024x34.rank) a v concatenates_S32x1024x2_S32x1024x32_S32x1024x34_d2 (ix3 b n c) rfl rfl
      (ix3 b n ⟨c.val - 2, by have := c.isLt; omega⟩)
      (fun d hd => match d, hd with | ⟨0, _⟩, _ => rfl | ⟨1, _⟩, _ => rfl | ⟨2, _⟩, hd => absurd rfl hd)
      (by show c.val - 2 + 2 = c.val; omega)

/-- The channel-axis join of five 34-channel arrays, at channel `34 k + c`: piece `k` at channel `c`. -/
theorem join5_apply {α : Type} (p0 p1 p2 p3 p4 : S32x1024x34.Idx → α) (b : Fin 32) (n : Fin 1024) (c : Fin 34) :
    (concatenate S32x1024x170 2 [⟨S32x1024x34, p0⟩, ⟨S32x1024x34, p1⟩, ⟨S32x1024x34, p2⟩, ⟨S32x1024x34, p3⟩, ⟨S32x1024x34, p4⟩]
        concatenates_S32x1024x34_S32x1024x34_S32x1024x34_S32x1024x34_S32x1024x34_S32x1024x170_d2 (ix3 b n (wrow 0 c)) = p0 (ix3 b n c))
    ∧ (concatenate S32x1024x170 2 [⟨S32x1024x34, p0⟩, ⟨S32x1024x34, p1⟩, ⟨S32x1024x34, p2⟩, ⟨S32x1024x34, p3⟩, ⟨S32x1024x34, p4⟩]
        concatenates_S32x1024x34_S32x1024x34_S32x1024x34_S32x1024x34_S32x1024x34_S32x1024x170_d2 (ix3 b n (wrow 1 c)) = p1 (ix3 b n c))
    ∧ (concatenate S32x1024x170 2 [⟨S32x1024x34, p0⟩, ⟨S32x1024x34, p1⟩, ⟨S32x1024x34, p2⟩, ⟨S32x1024x34, p3⟩, ⟨S32x1024x34, p4⟩]
        concatenates_S32x1024x34_S32x1024x34_S32x1024x34_S32x1024x34_S32x1024x34_S32x1024x170_d2 (ix3 b n (wrow 2 c)) = p2 (ix3 b n c))
    ∧ (concatenate S32x1024x170 2 [⟨S32x1024x34, p0⟩, ⟨S32x1024x34, p1⟩, ⟨S32x1024x34, p2⟩, ⟨S32x1024x34, p3⟩, ⟨S32x1024x34, p4⟩]
        concatenates_S32x1024x34_S32x1024x34_S32x1024x34_S32x1024x34_S32x1024x34_S32x1024x170_d2 (ix3 b n (wrow 3 c)) = p3 (ix3 b n c))
    ∧ (concatenate S32x1024x170 2 [⟨S32x1024x34, p0⟩, ⟨S32x1024x34, p1⟩, ⟨S32x1024x34, p2⟩, ⟨S32x1024x34, p3⟩, ⟨S32x1024x34, p4⟩]
        concatenates_S32x1024x34_S32x1024x34_S32x1024x34_S32x1024x34_S32x1024x34_S32x1024x170_d2 (ix3 b n (wrow 4 c)) = p4 (ix3 b n c)) := by
  have hi : ∀ d : Fin S32x1024x34.rank, d.cast (rfl : S32x1024x34.rank = S32x1024x170.rank) ≠ (2 : Fin S32x1024x170.rank) →
      ∀ k : Fin 5, ((ix3 b n c : S32x1024x34.Idx) d).val = ((ix3 b n (wrow k c) : S32x1024x170.Idx) (d.cast rfl)).val :=
    fun d hd k => match d, hd with | ⟨0, _⟩, _ => rfl | ⟨1, _⟩, _ => rfl | ⟨2, _⟩, hd => absurd rfl hd
  refine ⟨?_, ?_, ?_, ?_, ?_⟩
  · exact concatenate_apply_piece (2 : Fin S32x1024x170.rank) _ _ (ix3 b n (wrow 0 c)) 0 (by show (0 : ℕ) < 5; omega) S32x1024x34 p0 rfl rfl 0 rfl
      (ix3 b n c) (fun d hd => hi d hd 0) (by show 0 + c.val = 0 * 34 + c.val; omega)
  · exact concatenate_apply_piece (2 : Fin S32x1024x170.rank) _ _ (ix3 b n (wrow 1 c)) 1 (by show (1 : ℕ) < 5; omega) S32x1024x34 p1 rfl rfl 34 rfl
      (ix3 b n c) (fun d hd => hi d hd 1) (by show 34 + c.val = 1 * 34 + c.val; omega)
  · exact concatenate_apply_piece (2 : Fin S32x1024x170.rank) _ _ (ix3 b n (wrow 2 c)) 2 (by show (2 : ℕ) < 5; omega) S32x1024x34 p2 rfl rfl 68 rfl
      (ix3 b n c) (fun d hd => hi d hd 2) (by show 68 + c.val = 2 * 34 + c.val; omega)
  · exact concatenate_apply_piece (2 : Fin S32x1024x170.rank) _ _ (ix3 b n (wrow 3 c)) 3 (by show (3 : ℕ) < 5; omega) S32x1024x34 p3 rfl rfl 102 rfl
      (ix3 b n c) (fun d hd => hi d hd 3) (by show 102 + c.val = 3 * 34 + c.val; omega)
  · exact concatenate_apply_piece (2 : Fin S32x1024x170.rank) _ _ (ix3 b n (wrow 4 c)) 4 (by show (4 : ℕ) < 5; omega) S32x1024x34 p4 rfl rfl 136 rfl
      (ix3 b n c) (fun d hd => hi d hd 4) (by show 136 + c.val = 4 * 34 + c.val; omega)

/-- The first diffusion matrix of batch `b`, sliced out of the supports and reshaped. -/
theorem support0_apply {F : FTy → Type} [FloatOps F] (x1 : (⟨S32x2x1024x1024, .f32⟩ : BufTy).Contents (Elt F)) (b : Fin 32) (n m : Fin 1024) :
    val_main_v2 (F := F) x1 (ix3 b n m) = x1 (ix4 b 0 n m) := by
  rw [val_main_v2_apply, val_main_v1_apply]
  refine congrArg x1 (funext fun a => Fin.ext ?_)
  have hb := b.isLt; have hn := n.isLt; have hm := m.isLt
  match a with
  | ⟨0, _⟩ => show ((b.val * 1024 + n.val) * 1024 + m.val) / 1048576 = b.val; omega
  | ⟨1, _⟩ => rfl
  | ⟨2, _⟩ => show ((b.val * 1024 + n.val) * 1024 + m.val) / 1024 % 1024 = n.val; omega
  | ⟨3, _⟩ => show ((b.val * 1024 + n.val) * 1024 + m.val) % 1024 = m.val; omega

/-- The second diffusion matrix of batch `b`. -/
theorem support1_apply {F : FTy → Type} [FloatOps F] (x1 : (⟨S32x2x1024x1024, .f32⟩ : BufTy).Contents (Elt F)) (b : Fin 32) (n m : Fin 1024) :
    val_main_v6 (F := F) x1 (ix3 b n m) = x1 (ix4 b 1 n m) := by
  rw [val_main_v6_apply, val_main_v5_apply]
  refine congrArg x1 (funext fun a => Fin.ext ?_)
  have hb := b.isLt; have hn := n.isLt; have hm := m.isLt
  match a with
  | ⟨0, _⟩ => show ((b.val * 1024 + n.val) * 1024 + m.val) / 1048576 = b.val; omega
  | ⟨1, _⟩ => rfl
  | ⟨2, _⟩ => show ((b.val * 1024 + n.val) * 1024 + m.val) / 1024 % 1024 = n.val; omega
  | ⟨3, _⟩ => show ((b.val * 1024 + n.val) * 1024 + m.val) % 1024 = m.val; omega

theorem support0'_apply {F : FTy → Type} [FloatOps F] (x1 : (⟨S32x2x1024x1024, .f32⟩ : BufTy).Contents (Elt F)) (b : Fin 32) (n m : Fin 1024) :
    val_main_v25 (F := F) x1 (ix3 b n m) = x1 (ix4 b 0 n m) := support0_apply x1 b n m

theorem support1'_apply {F : FTy → Type} [FloatOps F] (x1 : (⟨S32x2x1024x1024, .f32⟩ : BufTy).Contents (Elt F)) (b : Fin 32) (n m : Fin 1024) :
    val_main_v29 (F := F) x1 (ix3 b n m) = x1 (ix4 b 1 n m) := support1_apply x1 b n m

/-- A batched diffusion product read at (b, n, c) is the cell's diffusion step of batch `b`'s matrix and signal. -/
theorem dot_hop (Y : S32x1024x1024.Idx → EReal) (Z : S32x1024x34.Idx → EReal) (b : Fin 32) (AF : Fin 1024 → Fin 1024 → EReal)
    (XF : Fin 1024 → Fin 34 → EReal) (hY : ∀ n m, Y (ix3 b n m) = AF n m) (hZ : ∀ m c, Z (ix3 b m c) = XF m c)
    (n : Fin 1024) (c : Fin 34) :
    ∑ k : Fin 1024, Y (lidx_main_v3 (ix3 b n c) k) * Z (ridx_main_v3 (ix3 b n c) k) = hop AF XF n c := by
  unfold hop
  refine Finset.sum_congr rfl fun k _ => ?_
  have el : lidx_main_v3 (ix3 b n c) k = ix3 b n k := funext fun a => match a with | ⟨0, _⟩ => rfl | ⟨1, _⟩ => rfl | ⟨2, _⟩ => rfl
  have er : ridx_main_v3 (ix3 b n c) k = ix3 b k c := funext fun a => match a with | ⟨0, _⟩ => rfl | ⟨1, _⟩ => rfl | ⟨2, _⟩ => rfl
  rw [el, er, hY, hZ]

/-- The 170-channel contraction, split into the five stretches of the cell's linear layer. -/
theorem dot_lin {O : Nat} (H : S32x1024x170.Idx → EReal) (Wt : Fin 170 → EReal) (b : Fin 32) (n : Fin 1024)
    (X0 X1 X2 X3 X4 : Fin 1024 → Fin 34 → EReal)
    (h0 : ∀ c, H (ix3 b n (wrow 0 c)) = X0 n c) (h1 : ∀ c, H (ix3 b n (wrow 1 c)) = X1 n c)
    (h2 : ∀ c, H (ix3 b n (wrow 2 c)) = X2 n c) (h3 : ∀ c, H (ix3 b n (wrow 3 c)) = X3 n c)
    (h4 : ∀ c, H (ix3 b n (wrow 4 c)) = X4 n c) :
    ∑ f : Fin 170, H (ix3 b n f) * Wt f
      = ((((∑ c : Fin 34, X0 n c * Wt (wrow 0 c)) + ∑ c : Fin 34, X1 n c * Wt (wrow 1 c)) + ∑ c : Fin 34, X2 n c * Wt (wrow 2 c))
        + ∑ c : Fin 34, X3 n c * Wt (wrow 3 c)) + ∑ c : Fin 34, X4 n c * Wt (wrow 4 c) := by
  rw [sum_rows]
  simp only [h0, h1, h2, h3, h4]

/-! ## The reference, stage by stage, at batch `b` -/

section Ref
variable (x0 : (⟨S32x1024x2, .f32⟩ : BufTy).Contents (Elt Ideal)) (x1 : (⟨S32x2x1024x1024, .f32⟩ : BufTy).Contents (Elt Ideal))
  (x2 : (⟨S32x1024x32, .f32⟩ : BufTy).Contents (Elt Ideal)) (x3 : (⟨S170x64, .f32⟩ : BufTy).Contents (Elt Ideal))
  (x4 : (⟨S64, .f32⟩ : BufTy).Contents (Elt Ideal)) (x5 : (⟨S170x32, .f32⟩ : BufTy).Contents (Elt Ideal))
  (x6 : (⟨S32, .f32⟩ : BufTy).Contents (Elt Ideal))

/-- Batch `b`'s input features, states and diffusion matrices, and the shared weights and biases, as plain functions. -/
abbrev uB (b : Fin 32) : Fin 1024 → Fin 2 → EReal := fun n c => x0 (ix3 b n c)
abbrev sB (b : Fin 32) : Fin 1024 → Fin 32 → EReal := fun n h => x2 (ix3 b n h)
abbrev A0B (b : Fin 32) : Fin 1024 → Fin 1024 → EReal := fun n m => x1 (ix4 b 0 n m)
abbrev A1B (b : Fin 32) : Fin 1024 → Fin 1024 → EReal := fun n m => x1 (ix4 b 1 n m)
abbrev WruB : Fin 170 → Fin 64 → EReal := fun f o => x3 (ix2 f o)
abbrev bruB : Fin 64 → EReal := fun o => x4 (ix1 o)
abbrev WcB : Fin 170 → Fin 32 → EReal := fun f o => x5 (ix2 f o)
abbrev bcB : Fin 32 → EReal := fun o => x6 (ix1 o)

theorem v0_spec (b : Fin 32) (n : Fin 1024) (c : Fin 34) :
    val_main_v0 (F := Ideal) x0 x2 (ix3 b n c) = cat (uB x0 b) (sB x2 b) n c := by
  unfold val_main_v0 cat
  exact join2_apply x0 x2 b n c

theorem v3_spec (b : Fin 32) (n : Fin 1024) (c : Fin 34) :
    val_main_v3 (F := Ideal) x0 x1 x2 (ix3 b n c) = hop (A0B x1 b) (cat (uB x0 b) (sB x2 b)) n c := by
  rw [val_main_v3_apply]
  exact dot_hop _ _ b _ _ (support0_apply x1 b) (v0_spec x0 x2 b) n c

theorem v4_spec (b : Fin 32) (n : Fin 1024) (c : Fin 34) :
    val_main_v4 (F := Ideal) x0 x1 x2 (ix3 b n c) = hop (A0B x1 b) (hop (A0B x1 b) (cat (uB x0 b) (sB x2 b))) n c := by
  rw [val_main_v4_apply]
  exact dot_hop _ _ b _ _ (support0_apply x1 b) (v3_spec x0 x1 x2 b) n c

theorem v7_spec (b : Fin 32) (n : Fin 1024) (c : Fin 34) :
    val_main_v7 (F := Ideal) x0 x1 x2 (ix3 b n c) = hop (A1B x1 b) (cat (uB x0 b) (sB x2 b)) n c := by
  rw [val_main_v7_apply]
  exact dot_hop _ _ b _ _ (support1_apply x1 b) (v0_spec x0 x2 b) n c

theorem v8_spec (b : Fin 32) (n : Fin 1024) (c : Fin 34) :
    val_main_v8 (F := Ideal) x0 x1 x2 (ix3 b n c) = hop (A1B x1 b) (hop (A1B x1 b) (cat (uB x0 b) (sB x2 b))) n c := by
  rw [val_main_v8_apply]
  exact dot_hop _ _ b _ _ (support1_apply x1 b) (v7_spec x0 x1 x2 b) n c

/-- The bias of the gates broadcast over batches and nodes. -/
theorem v12_spec (b : Fin 32) (n : Fin 1024) (o : Fin 64) : val_main_v12 (F := Ideal) x4 (ix3 b n o) = bruB x4 o := by
  rw [val_main_v12_apply, val_main_v11_apply]
  exact congrArg x4 (funext fun a => match a with | ⟨0, _⟩ => rfl)

/-- The first graph convolution. -/
theorem v13_spec (b : Fin 32) (n : Fin 1024) (o : Fin 64) :
    val_main_v13 (F := Ideal) x0 x1 x2 x3 x4 (ix3 b n o)
      = gconv (A0B x1 b) (A1B x1 b) (cat (uB x0 b) (sB x2 b)) (WruB x3) (bruB x4) n o := by
  have el : ∀ k, lidx_main_v10 (ix3 b n o) k = ix3 b n k := fun k => funext fun a => match a with | ⟨0, _⟩ => rfl | ⟨1, _⟩ => rfl | ⟨2, _⟩ => rfl
  have er : ∀ k, ridx_main_v10 (ix3 b n o) k = ix2 k o := fun k => funext fun a => match a with | ⟨0, _⟩ => rfl | ⟨1, _⟩ => rfl
  have hj := fun c => join5_apply (val_main_v0 (F := Ideal) x0 x2) (val_main_v3 (F := Ideal) x0 x1 x2) (val_main_v4 (F := Ideal) x0 x1 x2)
    (val_main_v7 (F := Ideal) x0 x1 x2) (val_main_v8 (F := Ideal) x0 x1 x2) b n c
  rw [val_main_v13_apply]
  show val_main_v10 (F := Ideal) x0 x1 x2 x3 (ix3 b n o) + val_main_v12 (F := Ideal) x4 (ix3 b n o) = _
  rw [v12_spec, val_main_v10_apply]
  simp only [el, er]
  unfold gconv lin
  exact congrArg (· + bruB x4 o) (dot_lin (O := 64) (val_main_v9 (F := Ideal) x0 x1 x2) (fun f => x3 (ix2 f o)) b n _ _ _ _ _
    (fun c => ((hj c).1).trans (v0_spec x0 x2 b n c)) (fun c => ((hj c).2.1).trans (v3_spec x0 x1 x2 b n c))
    (fun c => ((hj c).2.2.1).trans (v4_spec x0 x1 x2 b n c)) (fun c => ((hj c).2.2.2.1).trans (v7_spec x0 x1 x2 b n c))
    (fun c => ((hj c).2.2.2.2).trans (v8_spec x0 x1 x2 b n c)))

/-- The gates: the host's expanded logistic function of the first graph convolution. -/
theorem v19_spec (b : Fin 32) (n : Fin 1024) (o : Fin 64) :
    val_main_v19 (F := Ideal) x0 x1 x2 x3 x4 (ix3 b n o) = gates (uB x0 b) (sB x2 b) (A0B x1 b) (A1B x1 b) (WruB x3) (bruB x4) n o := by
  rw [val_main_v19_apply, val_main_v18_apply, val_main_cst_0_apply, val_main_v17_apply, val_main_v16_apply, val_main_cst_apply,
    val_main_v15_apply, val_main_v14_apply]
  show Ideal.div (Ideal.ofBits .f32 0x3F800000#32) (Ideal.ofBits .f32 0x3F800000#32 + Ideal.exp (-(val_main_v13 (F := Ideal) x0 x1 x2 x3 x4 (ix3 b n o)))) = _
  rw [logistic_expanded, v13_spec]
  rfl

theorem v20_spec (b : Fin 32) (n : Fin 1024) (h : Fin 32) :
    val_main_v20 (F := Ideal) x0 x1 x2 x3 x4 (ix3 b n h) = rgate (uB x0 b) (sB x2 b) (A0B x1 b) (A1B x1 b) (WruB x3) (bruB x4) n h := by
  have e : idx_main_v20 (ix3 b n h) = ix3 b n (⟨h.val, by have := h.isLt; omega⟩ : Fin 64) :=
    funext fun a => match a with | ⟨0, _⟩ => rfl | ⟨1, _⟩ => rfl | ⟨2, _⟩ => rfl
  rw [val_main_v20_apply, e, v19_spec]
  rfl

theorem v21_spec (b : Fin 32) (n : Fin 1024) (h : Fin 32) :
    val_main_v21 (F := Ideal) x0 x1 x2 x3 x4 (ix3 b n h) = ugate (uB x0 b) (sB x2 b) (A0B x1 b) (A1B x1 b) (WruB x3) (bruB x4) n h := by
  have e : idx_main_v21 (ix3 b n h) = ix3 b n (⟨32 + h.val, by have := h.isLt; omega⟩ : Fin 64) :=
    funext fun a => match a with | ⟨0, _⟩ => rfl | ⟨1, _⟩ => rfl | ⟨2, _⟩ => rfl
  rw [val_main_v21_apply, e, v19_spec]
  rfl

/-- The second joined signal: the inputs with the reset states. -/
theorem v23_spec (b : Fin 32) (n : Fin 1024) (c : Fin 34) :
    val_main_v23 (F := Ideal) x0 x1 x2 x3 x4 (ix3 b n c)
      = cat (uB x0 b) (fun n' h' => rgate (uB x0 b) (sB x2 b) (A0B x1 b) (A1B x1 b) (WruB x3) (bruB x4) n' h' * sB x2 b n' h') n c := by
  unfold val_main_v23 cat
  rw [join2_apply]
  by_cases h : c.val < 2
  · rw [dif_pos h, dif_pos h]
  · rw [dif_neg h, dif_neg h, val_main_v22_apply]
    show val_main_v20 (F := Ideal) x0 x1 x2 x3 x4 (ix3 b n _) * x2 (ix3 b n _) = _
    rw [v20_spec]

end Ref

end Cert.ReferenceIdeal.RefValue

end
-- ==== Proof.RefResult.lean ====
/-
  The second half of the reference read at an index: the candidate state from the inputs joined with the reset
  states, and the result `z * s + (1 - z) * c` at (batch b, node n, channel h) — the cell of Spec.lean of batch b's data.
-/
import proofs.«102497_j3676492005530_2_alg».proof.Proof.RefCell

noncomputable section

namespace Cert.ReferenceIdeal.RefValue

open Cert.ReferenceIdeal Cert.ReferenceIdeal.Gen Cert.ReferenceIdeal.ReadP Idealize.ShloMosaic Idealize.ShloMosaic.ValueIdx Cert.Dcgru

section Ref
variable (x0 : (⟨S32x1024x2, .f32⟩ : BufTy).Contents (Elt Ideal)) (x1 : (⟨S32x2x1024x1024, .f32⟩ : BufTy).Contents (Elt Ideal))
  (x2 : (⟨S32x1024x32, .f32⟩ : BufTy).Contents (Elt Ideal)) (x3 : (⟨S170x64, .f32⟩ : BufTy).Contents (Elt Ideal))
  (x4 : (⟨S64, .f32⟩ : BufTy).Contents (Elt Ideal)) (x5 : (⟨S170x32, .f32⟩ : BufTy).Contents (Elt Ideal))
  (x6 : (⟨S32, .f32⟩ : BufTy).Contents (Elt Ideal))

/-- The second joined signal of batch `b` as a plain function. -/
abbrev X2B (b : Fin 32) : Fin 1024 → Fin 34 → EReal :=
  cat (uB x0 b) (fun n' h' => rgate (uB x0 b) (sB x2 b) (A0B x1 b) (A1B x1 b) (WruB x3) (bruB x4) n' h' * sB x2 b n' h')

theorem v26_spec (b : Fin 32) (n : Fin 1024) (c : Fin 34) :
    val_main_v26 (F := Ideal) x0 x1 x2 x3 x4 (ix3 b n c) = hop (A0B x1 b) (X2B x0 x1 x2 x3 x4 b) n c := by
  rw [val_main_v26_apply]
  exact dot_hop _ _ b _ _ (support0'_apply x1 b) (v23_spec x0 x1 x2 x3 x4 b) n c

theorem v27_spec (b : Fin 32) (n : Fin 1024) (c : Fin 34) :
    val_main_v27 (F := Ideal) x0 x1 x2 x3 x4 (ix3 b n c) = hop (A0B x1 b) (hop (A0B x1 b) (X2B x0 x1 x2 x3 x4 b)) n c := by
  rw [val_main_v27_apply]
  exact dot_hop _ _ b _ _ (support0'_apply x1 b) (v26_spec x0 x1 x2 x3 x4 b) n c

theorem v30_spec (b : Fin 32) (n : Fin 1024) (c : Fin 34) :
    val_main_v30 (F := Ideal) x0 x1 x2 x3 x4 (ix3 b n c) = hop (A1B x1 b) (X2B x0 x1 x2 x3 x4 b) n c := by
  rw [val_main_v30_apply]
  exact dot_hop _ _ b _ _ (support1'_apply x1 b) (v23_spec x0 x1 x2 x3 x4 b) n c

theorem v31_spec (b : Fin 32) (n : Fin 1024) (c : Fin 34) :
    val_main_v31 (F := Ideal) x0 x1 x2 x3 x4 (ix3 b n c) = hop (A1B x1 b) (hop (A1B x1 b) (X2B x0 x1 x2 x3 x4 b)) n c := by
  rw [val_main_v31_apply]
  exact dot_hop _ _ b _ _ (support1'_apply x1 b) (v30_spec x0 x1 x2 x3 x4 b) n c

/-- The bias of the candidate broadcast over batches and nodes. -/
theorem v35_spec (b : Fin 32) (n : Fin 1024) (o : Fin 32) : val_main_v35 (F := Ideal) x6 (ix3 b n o) = bcB x6 o := by
  rw [val_main_v35_apply, val_main_v34_apply]
  exact congrArg x6 (funext fun a => match a with | ⟨0, _⟩ => rfl)

/-- The second graph convolution. -/
theorem v36_spec (b : Fin 32) (n : Fin 1024) (o : Fin 32) :
    val_main_v36 (F := Ideal) x0 x1 x2 x3 x4 x5 x6 (ix3 b n o)
      = gconv (A0B x1 b) (A1B x1 b) (X2B x0 x1 x2 x3 x4 b) (WcB x5) (bcB x6) n o := by
  have el : ∀ k, lidx_main_v33 (ix3 b n o) k = ix3 b n k := fun k => funext fun a => match a with | ⟨0, _⟩ => rfl | ⟨1, _⟩ => rfl | ⟨2, _⟩ => rfl
  have er : ∀ k, ridx_main_v33 (ix3 b n o) k = ix2 k o := fun k => funext fun a => match a with | ⟨0, _⟩ => rfl | ⟨1, _⟩ => rfl
  have hj := fun c => join5_apply (val_main_v23 (F := Ideal) x0 x1 x2 x3 x4) (val_main_v26 (F := Ideal) x0 x1 x2 x3 x4)
    (val_main_v27 (F := Ideal) x0 x1 x2 x3 x4) (val_main_v30 (F := Ideal) x0 x1 x2 x3 x4) (val_main_v31 (F := Ideal) x0 x1 x2 x3 x4) b n c
  rw [val_main_v36_apply]
  show val_main_v33 (F := Ideal) x0 x1 x2 x3 x4 x5 (ix3 b n o) + val_main_v35 (F := Ideal) x6 (ix3 b n o) = _
  rw [v35_spec, val_main_v33_apply]
  simp only [el, er]
  unfold gconv lin
  exact congrArg (· + bcB x6 o) (dot_lin (O := 32) (val_main_v32 (F := Ideal) x0 x1 x2 x3 x4) (fun f => x5 (ix2 f o)) b n _ _ _ _ _
    (fun c => ((hj c).1).trans (v23_spec x0 x1 x2 x3 x4 b n c)) (fun c => ((hj c).2.1).trans (v26_spec x0 x1 x2 x3 x4 b n c))
    (fun c => ((hj c).2.2.1).trans (v27_spec x0 x1 x2 x3 x4 b n c)) (fun c => ((hj c).2.2.2.1).trans (v30_spec x0 x1 x2 x3 x4 b n c))
    (fun c => ((hj c).2.2.2.2).trans (v31_spec x0 x1 x2 x3 x4 b n c)))

/-- The reference's result at (b, n, h): the cell of batch `b`'s data at (n, h). -/
theorem v42_spec (b : Fin 32) (n : Fin 1024) (h : Fin 32) :
    val_main_v42 (F := Ideal) x0 x1 x2 x3 x4 x5 x6 (ix3 b n h)
      = cell (uB x0 b) (sB x2 b) (A0B x1 b) (A1B x1 b) (WruB x3) (bruB x4) (WcB x5) (bcB x6) n h := by
  rw [val_main_v42_apply, val_main_v38_apply, val_main_v41_apply, val_main_v40_apply, val_main_v39_apply, val_main_cst_1_apply,
    val_main_v37_apply]
  show val_main_v21 (F := Ideal) x0 x1 x2 x3 x4 (ix3 b n h) * x2 (ix3 b n h)
      + (Ideal.ofBits .f32 0x3F800000#32 - val_main_v21 (F := Ideal) x0 x1 x2 x3 x4 (ix3 b n h))
        * Ideal.tanh (val_main_v36 (F := Ideal) x0 x1 x2 x3 x4 x5 x6 (ix3 b n h)) = _
  rw [v21_spec, v36_spec]
  rfl

end Ref

end Cert.ReferenceIdeal.RefValue

end
-- ==== Proof.RefRun.lean ====
/-
  The reference program's run, read back: every weakly fair execution of its @main terminates with the result buffer at
  the last stage of the read module (`val_main_v42` of the argument arrays) and the arguments unchanged.

  The 46 host operations are cut into five stretches — the first joined signals (to `main_v9`), the gates (to
  `main_v19`), the reset states joined with the inputs (`main_v21`, `main_v23`), the second joined signals (to
  `main_v32`), and the candidate and the result (to `main_v42`). Each stretch is read from ANY buffer contents `W`: what it
  leaves in the buffers later stretches read, given what `W` holds in the buffers it reads; a value several later
  operations consume is then named once, at the cut, instead of being expanded at every use.
-/
import proofs.«102497_j3676492005530_2_alg».proof.Proof.RunP
import proofs.«102497_j3676492005530_2_alg».proof.Proof.ReadP

noncomputable section

namespace Cert.ReferenceIdeal.RefRun

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

/-- A `StableHlo.nary` result over a LITERAL family of five references (a concatenation of five operands), each operand's
    contents at its own reference, so that the result lemmas go on rewriting them (the library states this for four). -/
theorem nary5_result {x a b c d y : Ref sig .tc}
    (f : ((k : Fin 5) → ((![x, a, b, c, d] : Fin 5 → Ref sig .tc) k).ty.Contents (Elt F)) → y.ty.Contents (Elt F)) (hxs hy)
    (W : Valuation τ sig (Elt F)) :
    (nary (τ := τ) ![x, a, b, c, d] y f hxs hy).result W (Proc.devRef .tc y)
      = f (Fin.cons (W (Proc.devRef .tc x)) (Fin.cons (W (Proc.devRef .tc a)) (Fin.cons (W (Proc.devRef .tc b))
          (Fin.cons (W (Proc.devRef .tc c)) (Fin.cons (W (Proc.devRef .tc d)) (fun i => i.elim0)))))) := by
  rw [nary_result]; congr 1; funext k; fin_cases k <;> rfl

/-- The fold over two stretches is the fold over the second from the fold over the first. -/
theorem after_app : ∀ (l₁ l₂ : List (HloOp τ sig (Elt F))) (W : Valuation τ sig (Elt F)), after (l₁ ++ l₂) W = after l₂ (after l₁ W)
  | [], _, _ => rfl
  | op :: l₁, l₂, W => by rw [List.cons_append, after_cons, after_cons, after_app l₁ l₂]

/-- `after_results` with the five-operand concatenation read operand by operand. -/
macro "stretch_results" : tactic =>
  `(tactic| (simp only [after_cons, after_nil]
             repeat (first
               | rw [nullary_result] | rw [unary_result] | rw [binary_result] | rw [reshape_result] | rw [nary5_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

/-! ## The five stretches -/

/-- Operations 1–10: the first joined signal, its four diffused copies, and their join `main_v9`. -/
abbrev opsA : List (HloOp τ sig (Elt F)) :=
  [ binary main_arg0 main_arg2 main_v0 ((fun a b => concatenate S32x1024x34 2 [⟨S32x1024x2, a⟩, ⟨S32x1024x32, b⟩] concatenates_S32x1024x2_S32x1024x32_S32x1024x34_d2) : (⟨S32x1024x2, .f32⟩ : BufTy).Contents (Elt F) → (⟨S32x1024x32, .f32⟩ : BufTy).Contents (Elt F) → (⟨S32x1024x34, .f32⟩ : BufTy).Contents (Elt F)),
    unary main_arg1 main_v1 ((extractStridedSlice S32x1x1024x1024 ![0, 0, 0, 0] · slices_S32x2x1024x1024_S32x1x1024x1024_0_0_0_0) : (⟨S32x2x1024x1024, .f32⟩ : BufTy).Contents (Elt F) → (⟨S32x1x1024x1024, .f32⟩ : BufTy).Contents (Elt F)),
    reshape main_v1 main_v2 rfl shapeCasts_S32x1x1024x1024_S32x1024x1024,
    binary main_v2 main_v0 main_v3 ((fun l r => Host.dotGeneral dot_S32x1024x1024_S32x1024x34_S32x1024x34_2_1_1_2_0_0 none l r) : (⟨S32x1024x1024, .f32⟩ : BufTy).Contents (Elt F) → (⟨S32x1024x34, .f32⟩ : BufTy).Contents (Elt F) → (⟨S32x1024x34, .f32⟩ : BufTy).Contents (Elt F)),
    binary main_v2 main_v3 main_v4 ((fun l r => Host.dotGeneral dot_S32x1024x1024_S32x1024x34_S32x1024x34_2_1_1_2_0_0 none l r) : (⟨S32x1024x1024, .f32⟩ : BufTy).Contents (Elt F) → (⟨S32x1024x34, .f32⟩ : BufTy).Contents (Elt F) → (⟨S32x1024x34, .f32⟩ : BufTy).Contents (Elt F)),
    unary main_arg1 main_v5 ((extractStridedSlice S32x1x1024x1024 ![0, 1, 0, 0] · slices_S32x2x1024x1024_S32x1x1024x1024_0_1_0_0) : (⟨S32x2x1024x1024, .f32⟩ : BufTy).Contents (Elt F) → (⟨S32x1x1024x1024, .f32⟩ : BufTy).Contents (Elt F)),
    reshape main_v5 main_v6 rfl shapeCasts_S32x1x1024x1024_S32x1024x1024,
    binary main_v6 main_v0 main_v7 ((fun l r => Host.dotGeneral dot_S32x1024x1024_S32x1024x34_S32x1024x34_2_1_1_2_0_0 none l r) : (⟨S32x1024x1024, .f32⟩ : BufTy).Contents (Elt F) → (⟨S32x1024x34, .f32⟩ : BufTy).Contents (Elt F) → (⟨S32x1024x34, .f32⟩ : BufTy).Contents (Elt F)),
    binary main_v6 main_v7 main_v8 ((fun l r => Host.dotGeneral dot_S32x1024x1024_S32x1024x34_S32x1024x34_2_1_1_2_0_0 none l r) : (⟨S32x1024x1024, .f32⟩ : BufTy).Contents (Elt F) → (⟨S32x1024x34, .f32⟩ : BufTy).Contents (Elt F) → (⟨S32x1024x34, .f32⟩ : BufTy).Contents (Elt F)),
    nary ![main_v0, main_v3, main_v4, main_v7, main_v8] main_v9 (fun u => concatenate S32x1024x170 2 [⟨S32x1024x34, u 0⟩, ⟨S32x1024x34, u 1⟩, ⟨S32x1024x34, u 2⟩, ⟨S32x1024x34, u 3⟩, ⟨S32x1024x34, u 4⟩] concatenates_S32x1024x34_S32x1024x34_S32x1024x34_S32x1024x34_S32x1024x34_S32x1024x170_d2) ]

/-- Operations 11–22: the first graph convolution's projection, bias, and the expanded logistic function `main_v19`. -/
abbrev opsB : List (HloOp τ sig (Elt F)) :=
  [ binary main_v9 main_arg3 main_v10 ((fun l r => Host.dotGeneral dot_S32x1024x170_S170x64_S32x1024x64_2_0_01_1_n_n none l r) : (⟨S32x1024x170, .f32⟩ : BufTy).Contents (Elt F) → (⟨S170x64, .f32⟩ : BufTy).Contents (Elt F) → (⟨S32x1024x64, .f32⟩ : BufTy).Contents (Elt F)),
    unary main_arg4 main_v11 (broadcastInDim S1x1x64 ![2] bcast_S64_S1x1x64_2 : (⟨S64, .f32⟩ : BufTy).Contents (Elt F) → (⟨S1x1x64, .f32⟩ : BufTy).Contents (Elt F)),
    unary main_v11 main_v12 (broadcastInDim S32x1024x64 ![0, 1, 2] bcast_S1x1x64_S32x1024x64_0_1_2 : (⟨S1x1x64, .f32⟩ : BufTy).Contents (Elt F) → (⟨S32x1024x64, .f32⟩ : BufTy).Contents (Elt F)),
    binary main_v10 main_v12 main_v13 (addf : (⟨S32x1024x64, .f32⟩ : BufTy).Contents (Elt F) → (⟨S32x1024x64, .f32⟩ : BufTy).Contents (Elt F) → (⟨S32x1024x64, .f32⟩ : BufTy).Contents (Elt F)),
    unary main_v13 main_v14 (Host.negf : (⟨S32x1024x64, .f32⟩ : BufTy).Contents (Elt F) → (⟨S32x1024x64, .f32⟩ : BufTy).Contents (Elt F)),
    unary main_v14 main_v15 (Host.exp : (⟨S32x1024x64, .f32⟩ : BufTy).Contents (Elt F) → (⟨S32x1024x64, .f32⟩ : BufTy).Contents (Elt F)),
    nullary main_cst (constant S_ .f32 0x3F800000#32),
    unary main_cst main_v16 (broadcastInDim S32x1024x64 ![] bcast_S_S32x1024x64 : (⟨S_, .f32⟩ : BufTy).Contents (Elt F) → (⟨S32x1024x64, .f32⟩ : BufTy).Contents (Elt F)),
    binary main_v16 main_v15 main_v17 (addf : (⟨S32x1024x64, .f32⟩ : BufTy).Contents (Elt F) → (⟨S32x1024x64, .f32⟩ : BufTy).Contents (Elt F) → (⟨S32x1024x64, .f32⟩ : BufTy).Contents (Elt F)),
    nullary main_cst_0 (constant S_ .f32 0x3F800000#32),
    unary main_cst_0 main_v18 (broadcastInDim S32x1024x64 ![] bcast_S_S32x1024x64 : (⟨S_, .f32⟩ : BufTy).Contents (Elt F) → (⟨S32x1024x64, .f32⟩ : BufTy).Contents (Elt F)),
    binary main_v18 main_v17 main_v19 (Host.divf : (⟨S32x1024x64, .f32⟩ : BufTy).Contents (Elt F) → (⟨S32x1024x64, .f32⟩ : BufTy).Contents (Elt F) → (⟨S32x1024x64, .f32⟩ : BufTy).Contents (Elt F)) ]

/-- Operations 23–26: the two gates sliced out, the reset states, and their join with the inputs `main_v23`. -/
abbrev opsC : List (HloOp τ sig (Elt F)) :=
  [ unary main_v19 main_v20 ((extractStridedSlice S32x1024x32 ![0, 0, 0] · slices_S32x1024x64_S32x1024x32_0_0_0) : (⟨S32x1024x64, .f32⟩ : BufTy).Contents (Elt F) → (⟨S32x1024x32, .f32⟩ : BufTy).Contents (Elt F)),
    unary main_v19 main_v21 ((extractStridedSlice S32x1024x32 ![0, 0, 32] · slices_S32x1024x64_S32x1024x32_0_0_32) : (⟨S32x1024x64, .f32⟩ : BufTy).Contents (Elt F) → (⟨S32x1024x32, .f32⟩ : BufTy).Contents (Elt F)),
    binary main_v20 main_arg2 main_v22 (mulf : (⟨S32x1024x32, .f32⟩ : BufTy).Contents (Elt F) → (⟨S32x1024x32, .f32⟩ : BufTy).Contents (Elt F) → (⟨S32x1024x32, .f32⟩ : BufTy).Contents (Elt F)),
    binary main_arg0 main_v22 main_v23 ((fun a b => concatenate S32x1024x34 2 [⟨S32x1024x2, a⟩, ⟨S32x1024x32, b⟩] concatenates_S32x1024x2_S32x1024x32_S32x1024x34_d2) : (⟨S32x1024x2, .f32⟩ : BufTy).Contents (Elt F) → (⟨S32x1024x32, .f32⟩ : BufTy).Contents (Elt F) → (⟨S32x1024x34, .f32⟩ : BufTy).Contents (Elt F)) ]

/-- Operations 27–35: the second signal's four diffused copies and their join `main_v32`. -/
abbrev opsD : List (HloOp τ sig (Elt F)) :=
  [ unary main_arg1 main_v24 ((extractStridedSlice S32x1x1024x1024 ![0, 0, 0, 0] · slices_S32x2x1024x1024_S32x1x1024x1024_0_0_0_0) : (⟨S32x2x1024x1024, .f32⟩ : BufTy).Contents (Elt F) → (⟨S32x1x1024x1024, .f32⟩ : BufTy).Contents (Elt F)),
    reshape main_v24 main_v25 rfl shapeCasts_S32x1x1024x1024_S32x1024x1024,
    binary main_v25 main_v23 main_v26 ((fun l r => Host.dotGeneral dot_S32x1024x1024_S32x1024x34_S32x1024x34_2_1_1_2_0_0 none l r) : (⟨S32x1024x1024, .f32⟩ : BufTy).Contents (Elt F) → (⟨S32x1024x34, .f32⟩ : BufTy).Contents (Elt F) → (⟨S32x1024x34, .f32⟩ : BufTy).Contents (Elt F)),
    binary main_v25 main_v26 main_v27 ((fun l r => Host.dotGeneral dot_S32x1024x1024_S32x1024x34_S32x1024x34_2_1_1_2_0_0 none l r) : (⟨S32x1024x1024, .f32⟩ : BufTy).Contents (Elt F) → (⟨S32x1024x34, .f32⟩ : BufTy).Contents (Elt F) → (⟨S32x1024x34, .f32⟩ : BufTy).Contents (Elt F)),
    unary main_arg1 main_v28 ((extractStridedSlice S32x1x1024x1024 ![0, 1, 0, 0] · slices_S32x2x1024x1024_S32x1x1024x1024_0_1_0_0) : (⟨S32x2x1024x1024, .f32⟩ : BufTy).Contents (Elt F) → (⟨S32x1x1024x1024, .f32⟩ : BufTy).Contents (Elt F)),
    reshape main_v28 main_v29 rfl shapeCasts_S32x1x1024x1024_S32x1024x1024,
    binary main_v29 main_v23 main_v30 ((fun l r => Host.dotGeneral dot_S32x1024x1024_S32x1024x34_S32x1024x34_2_1_1_2_0_0 none l r) : (⟨S32x1024x1024, .f32⟩ : BufTy).Contents (Elt F) → (⟨S32x1024x34, .f32⟩ : BufTy).Contents (Elt F) → (⟨S32x1024x34, .f32⟩ : BufTy).Contents (Elt F)),
    binary main_v29 main_v30 main_v31 ((fun l r => Host.dotGeneral dot_S32x1024x1024_S32x1024x34_S32x1024x34_2_1_1_2_0_0 none l r) : (⟨S32x1024x1024, .f32⟩ : BufTy).Contents (Elt F) → (⟨S32x1024x34, .f32⟩ : BufTy).Contents (Elt F) → (⟨S32x1024x34, .f32⟩ : BufTy).Contents (Elt F)),
    nary ![main_v23, main_v26, main_v27, main_v30, main_v31] main_v32 (fun u => concatenate S32x1024x170 2 [⟨S32x1024x34, u 0⟩, ⟨S32x1024x34, u 1⟩, ⟨S32x1024x34, u 2⟩, ⟨S32x1024x34, u 3⟩, ⟨S32x1024x34, u 4⟩] concatenates_S32x1024x34_S32x1024x34_S32x1024x34_S32x1024x34_S32x1024x34_S32x1024x170_d2) ]

/-- Operations 36–46: the candidate state and the result `main_v42`. -/
abbrev opsE : List (HloOp τ sig (Elt F)) :=
  [ binary main_v32 main_arg5 main_v33 ((fun l r => Host.dotGeneral dot_S32x1024x170_S170x32_S32x1024x32_2_0_01_1_n_n none l r) : (⟨S32x1024x170, .f32⟩ : BufTy).Contents (Elt F) → (⟨S170x32, .f32⟩ : BufTy).Contents (Elt F) → (⟨S32x1024x32, .f32⟩ : BufTy).Contents (Elt F)),
    unary main_arg6 main_v34 (broadcastInDim S1x1x32 ![2] bcast_S32_S1x1x32_2 : (⟨S32, .f32⟩ : BufTy).Contents (Elt F) → (⟨S1x1x32, .f32⟩ : BufTy).Contents (Elt F)),
    unary main_v34 main_v35 (broadcastInDim S32x1024x32 ![0, 1, 2] bcast_S1x1x32_S32x1024x32_0_1_2 : (⟨S1x1x32, .f32⟩ : BufTy).Contents (Elt F) → (⟨S32x1024x32, .f32⟩ : BufTy).Contents (Elt F)),
    binary main_v33 main_v35 main_v36 (addf : (⟨S32x1024x32, .f32⟩ : BufTy).Contents (Elt F) → (⟨S32x1024x32, .f32⟩ : BufTy).Contents (Elt F) → (⟨S32x1024x32, .f32⟩ : BufTy).Contents (Elt F)),
    unary main_v36 main_v37 (Host.tanh : (⟨S32x1024x32, .f32⟩ : BufTy).Contents (Elt F) → (⟨S32x1024x32, .f32⟩ : BufTy).Contents (Elt F)),
    binary main_v21 main_arg2 main_v38 (mulf : (⟨S32x1024x32, .f32⟩ : BufTy).Contents (Elt F) → (⟨S32x1024x32, .f32⟩ : BufTy).Contents (Elt F) → (⟨S32x1024x32, .f32⟩ : BufTy).Contents (Elt F)),
    nullary main_cst_1 (constant S_ .f32 0x3F800000#32),
    unary main_cst_1 main_v39 (broadcastInDim S32x1024x32 ![] bcast_S_S32x1024x32 : (⟨S_, .f32⟩ : BufTy).Contents (Elt F) → (⟨S32x1024x32, .f32⟩ : BufTy).Contents (Elt F)),
    binary main_v39 main_v21 main_v40 (subf : (⟨S32x1024x32, .f32⟩ : BufTy).Contents (Elt F) → (⟨S32x1024x32, .f32⟩ : BufTy).Contents (Elt F) → (⟨S32x1024x32, .f32⟩ : BufTy).Contents (Elt F)),
    binary main_v40 main_v37 main_v41 (mulf : (⟨S32x1024x32, .f32⟩ : BufTy).Contents (Elt F) → (⟨S32x1024x32, .f32⟩ : BufTy).Contents (Elt F) → (⟨S32x1024x32, .f32⟩ : BufTy).Contents (Elt F)),
    binary main_v38 main_v41 main_v42 (addf : (⟨S32x1024x32, .f32⟩ : BufTy).Contents (Elt F) → (⟨S32x1024x32, .f32⟩ : BufTy).Contents (Elt F) → (⟨S32x1024x32, .f32⟩ : BufTy).Contents (Elt F)) ]

set_option maxRecDepth 8192 in
theorem ops_split : (Cert.ReferenceIdeal.ValueP.ops : List (HloOp τ sig (Elt F))) = opsA ++ (opsB ++ (opsC ++ (opsD ++ opsE))) := rfl

section Stretches
variable (W : Valuation τ sig (Elt F))
  (x0 : (⟨S32x1024x2, .f32⟩ : BufTy).Contents (Elt F)) (x1 : (⟨S32x2x1024x1024, .f32⟩ : BufTy).Contents (Elt F))
  (x2 : (⟨S32x1024x32, .f32⟩ : BufTy).Contents (Elt F)) (x3 : (⟨S170x64, .f32⟩ : BufTy).Contents (Elt F))
  (x4 : (⟨S64, .f32⟩ : BufTy).Contents (Elt F)) (x5 : (⟨S170x32, .f32⟩ : BufTy).Contents (Elt F))
  (x6 : (⟨S32, .f32⟩ : BufTy).Contents (Elt F))

theorem A_v9 : after opsA W (Proc.devRef .tc main_v9)
    = val_main_v9 (F := F) (W (Proc.devRef .tc main_arg0)) (W (Proc.devRef .tc main_arg1)) (W (Proc.devRef .tc main_arg2)) := by
  stretch_results
  rfl
theorem A_arg0 : after opsA W (Proc.devRef .tc main_arg0) = W (Proc.devRef .tc main_arg0) := by stretch_results
theorem A_arg1 : after opsA W (Proc.devRef .tc main_arg1) = W (Proc.devRef .tc main_arg1) := by stretch_results
theorem A_arg2 : after opsA W (Proc.devRef .tc main_arg2) = W (Proc.devRef .tc main_arg2) := by stretch_results
theorem A_arg3 : after opsA W (Proc.devRef .tc main_arg3) = W (Proc.devRef .tc main_arg3) := by stretch_results
theorem A_arg4 : after opsA W (Proc.devRef .tc main_arg4) = W (Proc.devRef .tc main_arg4) := by stretch_results
theorem A_arg5 : after opsA W (Proc.devRef .tc main_arg5) = W (Proc.devRef .tc main_arg5) := by stretch_results
theorem A_arg6 : after opsA W (Proc.devRef .tc main_arg6) = W (Proc.devRef .tc main_arg6) := by stretch_results

theorem B_v19 (h9 : W (Proc.devRef .tc main_v9) = val_main_v9 (F := F) x0 x1 x2) :
    after opsB W (Proc.devRef .tc main_v19)
      = val_main_v19 (F := F) x0 x1 x2 (W (Proc.devRef .tc main_arg3)) (W (Proc.devRef .tc main_arg4)) := by
  stretch_results
  rw [h9]
  rfl
theorem B_arg0 : after opsB W (Proc.devRef .tc main_arg0) = W (Proc.devRef .tc main_arg0) := by stretch_results
theorem B_arg1 : after opsB W (Proc.devRef .tc main_arg1) = W (Proc.devRef .tc main_arg1) := by stretch_results
theorem B_arg2 : after opsB W (Proc.devRef .tc main_arg2) = W (Proc.devRef .tc main_arg2) := by stretch_results
theorem B_arg5 : after opsB W (Proc.devRef .tc main_arg5) = W (Proc.devRef .tc main_arg5) := by stretch_results
theorem B_arg6 : after opsB W (Proc.devRef .tc main_arg6) = W (Proc.devRef .tc main_arg6) := by stretch_results

theorem C_v21 (h19 : W (Proc.devRef .tc main_v19) = val_main_v19 (F := F) x0 x1 x2 x3 x4) :
    after opsC W (Proc.devRef .tc main_v21) = val_main_v21 (F := F) x0 x1 x2 x3 x4 := by
  stretch_results
  rw [h19]
  rfl
theorem C_v23 (h19 : W (Proc.devRef .tc main_v19) = val_main_v19 (F := F) x0 x1 x2 x3 x4)
    (h0 : W (Proc.devRef .tc main_arg0) = x0) (h2 : W (Proc.devRef .tc main_arg2) = x2) :
    after opsC W (Proc.devRef .tc main_v23) = val_main_v23 (F := F) x0 x1 x2 x3 x4 := by
  stretch_results
  rw [h19, h0, h2]
  rfl
theorem C_arg1 : after opsC W (Proc.devRef .tc main_arg1) = W (Proc.devRef .tc main_arg1) := by stretch_results
theorem C_arg2 : after opsC W (Proc.devRef .tc main_arg2) = W (Proc.devRef .tc main_arg2) := by stretch_results
theorem C_arg5 : after opsC W (Proc.devRef .tc main_arg5) = W (Proc.devRef .tc main_arg5) := by stretch_results
theorem C_arg6 : after opsC W (Proc.devRef .tc main_arg6) = W (Proc.devRef .tc main_arg6) := by stretch_results

theorem D_v32 (h23 : W (Proc.devRef .tc main_v23) = val_main_v23 (F := F) x0 x1 x2 x3 x4) (h1 : W (Proc.devRef .tc main_arg1) = x1) :
    after opsD W (Proc.devRef .tc main_v32) = val_main_v32 (F := F) x0 x1 x2 x3 x4 := by
  stretch_results
  rw [h23, h1]
  rfl
theorem D_v21 : after opsD W (Proc.devRef .tc main_v21) = W (Proc.devRef .tc main_v21) := by stretch_results
theorem D_arg2 : after opsD W (Proc.devRef .tc main_arg2) = W (Proc.devRef .tc main_arg2) := by stretch_results
theorem D_arg5 : after opsD W (Proc.devRef .tc main_arg5) = W (Proc.devRef .tc main_arg5) := by stretch_results
theorem D_arg6 : after opsD W (Proc.devRef .tc main_arg6) = W (Proc.devRef .tc main_arg6) := by stretch_results

theorem E_v42 (h32 : W (Proc.devRef .tc main_v32) = val_main_v32 (F := F) x0 x1 x2 x3 x4)
    (h21 : W (Proc.devRef .tc main_v21) = val_main_v21 (F := F) x0 x1 x2 x3 x4)
    (h2 : W (Proc.devRef .tc main_arg2) = x2) (h5 : W (Proc.devRef .tc main_arg5) = x5) (h6 : W (Proc.devRef .tc main_arg6) = x6) :
    after opsE W (Proc.devRef .tc main_v42) = val_main_v42 (F := F) x0 x1 x2 x3 x4 x5 x6 := by
  stretch_results
  rw [h32, h21, h2, h5, h6]
  rfl

end Stretches

/-! ## The whole line -/

/-- The result buffer after the 46 operations, from any contents `V`: the last stage of the arguments `V` holds. -/
theorem after_ops_v42 (V : Valuation τ sig (Elt F)) :
    after Cert.ReferenceIdeal.ValueP.ops V (Proc.devRef .tc main_v42)
      = val_main_v42 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6)) := by
  rw [ops_split, after_app, after_app, after_app, after_app]
  -- the first stretch
  have h9 := A_v9 V
  have a0 := A_arg0 V; have a1 := A_arg1 V; have a2 := A_arg2 V; have a3 := A_arg3 V; have a4 := A_arg4 V
  have a5 := A_arg5 V; have a6 := A_arg6 V
  generalize after opsA V = W1 at *
  -- the second
  have h19 := B_v19 W1 _ _ _ h9
  rw [a3, a4] at h19
  have b0 := (B_arg0 W1).trans a0; have b1 := (B_arg1 W1).trans a1; have b2 := (B_arg2 W1).trans a2
  have b5 := (B_arg5 W1).trans a5; have b6 := (B_arg6 W1).trans a6
  generalize after opsB W1 = W2 at *
  -- the third
  have h21 := C_v21 W2 _ _ _ _ _ h19
  have h23 := C_v23 W2 _ _ _ _ _ h19 b0 b2
  have c1 := (C_arg1 W2).trans b1; have c2 := (C_arg2 W2).trans b2
  have c5 := (C_arg5 W2).trans b5; have c6 := (C_arg6 W2).trans b6
  generalize after opsC W2 = W3 at *
  -- the fourth
  have h32 := D_v32 W3 _ _ _ _ _ h23 c1
  have d21 := (D_v21 W3).trans h21
  have d2 := (D_arg2 W3).trans c2; have d5 := (D_arg5 W3).trans c5; have d6 := (D_arg6 W3).trans c6
  generalize after opsD W3 = W4 at *
  -- the fifth
  exact E_v42 W4 _ _ _ _ _ _ _ h32 d21 d2 d5 d6

/-- No operation writes an argument buffer. -/
theorem after_ops_arg (V : Valuation τ sig (Elt F)) :
    after Cert.ReferenceIdeal.ValueP.ops V (Proc.devRef .tc main_arg0) = V (Proc.devRef .tc main_arg0)
    ∧ after Cert.ReferenceIdeal.ValueP.ops V (Proc.devRef .tc main_arg1) = V (Proc.devRef .tc main_arg1)
    ∧ after Cert.ReferenceIdeal.ValueP.ops V (Proc.devRef .tc main_arg2) = V (Proc.devRef .tc main_arg2)
    ∧ after Cert.ReferenceIdeal.ValueP.ops V (Proc.devRef .tc main_arg3) = V (Proc.devRef .tc main_arg3)
    ∧ after Cert.ReferenceIdeal.ValueP.ops V (Proc.devRef .tc main_arg4) = V (Proc.devRef .tc main_arg4)
    ∧ after Cert.ReferenceIdeal.ValueP.ops V (Proc.devRef .tc main_arg5) = V (Proc.devRef .tc main_arg5)
    ∧ after Cert.ReferenceIdeal.ValueP.ops V (Proc.devRef .tc main_arg6) = V (Proc.devRef .tc main_arg6) := by
  refine ⟨?_, ?_, ?_, ?_, ?_, ?_, ?_⟩ <;>
  · refine after_of_forall_not_mem _ _ (List.forall_iff_forall_mem.mp ?_)
    simp only [Cert.ReferenceIdeal.ValueP.ops, List.Forall, nullary_writes, unary_writes, binary_writes, reshape_writes, nary_writes,
      Finset.mem_singleton]
    repeat' apply And.intro
    all_goals exact devRef_ne_of_ne (by decide)

/-- On every device, from any memory with zero counters: every weakly fair execution of the reference's @main terminates
    with the result buffer at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42)
        = val_main_v42 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      have ha := after_ops_arg (F := F) (launchContents m c)
      ⟨(h c main_v42).trans (after_ops_v42 (launchContents m c)),
        (h c main_arg0).trans ha.1, (h c main_arg1).trans ha.2.1, (h c main_arg2).trans ha.2.2.1, (h c main_arg3).trans ha.2.2.2.1,
        (h c main_arg4).trans ha.2.2.2.2.1, (h c main_arg5).trans ha.2.2.2.2.2.1, (h c main_arg6).trans ha.2.2.2.2.2.2⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.ReferenceIdeal.RefRun

end
-- ==== Proof.lean ====
/-
  The certificate of a diffusion-convolutional GRU cell: a Pallas kernel that keeps every per-node feature map
  transposed (channels on rows, the 1024 nodes on lanes), two batches per grid point, against the plain reference.

  Over the extended reals both programs compute, at (batch b, node n, channel h), the cell of Proof/Spec.lean of batch
  b's data: the gates `logistic (conv [x, s])`, the candidate `tanh (conv [x, r * s])` and `z * s + (1 - z) * c`, each graph
  convolution the linear layer of the signal and its one- and two-step diffusions by the two support matrices.
  * The kernel computes every matrix product with its two factors exchanged (`X Aᵀ` for `A X`, `Wᵀ X` for `X W`), which is
    commutativity of the product inside each sum, and adds five 34-row projections where the reference contracts the 170
    joined channels at once, which is a re-bracketing of one finite sum (`Dcgru.sum_rows`). Neither step distributes a
    product over a sum or cancels, so the precondition (finite inputs) is never opened.
  * The kernel's `tpu.logistic` and the reference's `1 / (1 + exp (-x))` are one function at the ideal instance.
  * The host code around the region only transposes and reshapes; read at an index it is the identity on the data.
  The kernel's side is Proof/KernelOps, KernelCell, KernelBlock, KernelValue; the reference's Proof/RefCell, RefResult, RefRun
  (its run, read in five stretches); Proof/Result names the common result array.
  The ideal pass rewrote nothing, so `preserves` is `True`.
-/
import proofs.«102497_j3676492005530_2_alg».proof.Defs
import proofs.«102497_j3676492005530_2_alg».proof.Proof.Gen.Kernel
import proofs.«102497_j3676492005530_2_alg».proof.Proof.Gen.Kernel.Skeleton
import proofs.«102497_j3676492005530_2_alg».proof.Proof.Gen.Kernel.Launch
import proofs.«102497_j3676492005530_2_alg».proof.Proof.Gen.Kernel.Points
import proofs.«102497_j3676492005530_2_alg».proof.Proof.Gen.Kernel.Frame
import proofs.«102497_j3676492005530_2_alg».proof.Proof.Gen.KernelIdeal
import proofs.«102497_j3676492005530_2_alg».proof.Proof.Gen.KernelIdeal.Skeleton
import proofs.«102497_j3676492005530_2_alg».proof.Proof.Gen.KernelIdeal.Launch
import proofs.«102497_j3676492005530_2_alg».proof.Proof.Gen.KernelIdeal.Points
import proofs.«102497_j3676492005530_2_alg».proof.Proof.Gen.KernelIdeal.Frame
import proofs.«102497_j3676492005530_2_alg».proof.Proof.Gen.ReferenceIdeal
import proofs.«102497_j3676492005530_2_alg».proof.Proof.Gen.Pre_finite_inputs
import proofs.«102497_j3676492005530_2_alg».proof.Proof.KernelValue
import proofs.«102497_j3676492005530_2_alg».proof.Proof.RefResult
import proofs.«102497_j3676492005530_2_alg».proof.Proof.RefRun
import proofs.«102497_j3676492005530_2_alg».proof.Proof.Result
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's last stage, as an array, is the result array of its arguments. -/
theorem ref_result (x0 : (⟨3, ![32, 1024, 2]⟩ : Shape).Idx → EReal) (x1 : (⟨4, ![32, 2, 1024, 1024]⟩ : Shape).Idx → EReal)
    (x2 : (⟨3, ![32, 1024, 32]⟩ : Shape).Idx → EReal) (x3 : (⟨2, ![170, 64]⟩ : Shape).Idx → EReal) (x4 : (⟨1, ![64]⟩ : Shape).Idx → EReal)
    (x5 : (⟨2, ![170, 32]⟩ : Shape).Idx → EReal) (x6 : (⟨1, ![32]⟩ : Shape).Idx → EReal) :
    Cert.ReferenceIdeal.ReadP.val_main_v42 (F := Ideal) x0 x1 x2 x3 x4 x5 x6 = Cert.Dcgru.resultArr x0 x1 x2 x3 x4 x5 x6 := by
  funext i
  obtain ⟨b, n, h, rfl⟩ : ∃ (b : Fin 32) (n : Fin 1024) (h : Fin 32), i = ix3 b n h := ⟨i 0, i 1, i 2, eq_ix3 i⟩
  exact Cert.ReferenceIdeal.RefValue.v42_spec x0 x1 x2 x3 x4 x5 x6 b n h

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- At the ideal instance both programs, from memories agreeing on the arguments, end with the result array of the
    arguments in their result buffers. -/
theorem algebraic : Cert.algebraic_KernelIdeal_ReferenceIdeal := by
  intro m ρ m' ρ' _ hagree
  refine ⟨fun c => Cert.Dcgru.resultArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => Cert.Dcgru.resultArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun _ h c => ⟨(h c).1, (h c).1, (h c).2⟩) (Cert.KernelIdeal.KValue.run m ρ)
  · refine (θ_run Cert.ReferenceIdeal.defs _ _).mono (fun r h c => ?_) (Cert.ReferenceIdeal.RefRun.run (F := Ideal) m' ρ')
    have e := (h c).1
    rw [(hagree c).1, (hagree c).2.1, (hagree c).2.2.1, (hagree c).2.2.2.1, (hagree c).2.2.2.2.1, (hagree c).2.2.2.2.2.1,
      (hagree c).2.2.2.2.2.2, ref_result] at e
    exact ⟨e, e, (h c).2⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
